-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S2x200000 : Shape := ⟨2, ![2, 200000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S512x1 .f32) (main_arg10 : FVec F S1 .f32) (main_v33 : IVec S_ 1) : IVec S_ 1 :=
  let main_v34 : FVec F S512x1 .f32 := Host.absf main_arg9
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S512 .f32) (main_arg7 : FVec F S1024x512 .f32) (main_arg8 : FVec F S512 .f32) (main_arg9 : FVec F S512x1 .f32) (main_arg10 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg7
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_v33

def fn {F : FTy → Type} [FloatOps F] (main_arg0 : FVec F S50000x512 .f32) (main_arg1 : IVec S2x400000 32) (main_arg2 : IVec S2x200000 32) (main_arg3 : FVec F S512x512 .f32) (main_arg4 : FVec F S512 .f32) (main_arg5 : FVec F S512x512 .f32) (main_arg6 : FVec F S512 .f32) (main_arg7 : FVec F S1024x512 .f32) (main_arg8 : FVec F S512 .f32) (main_arg9 : FVec F S512x1 .f32) (main_arg10 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_v13 main_v16
-- ==== Kernel.lean ====
abbrev S50000x512 : Shape := ⟨2, ![50000, 512]⟩
abbrev S2x400000 : Shape := ⟨2, ![2, 400000]⟩
abbrev S2x200000 : Shape := ⟨2, ![2, 200000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S_ : Shape := ⟨0, ![]⟩
abbrev S450000x1 : Shape := ⟨2, ![450000, 1]⟩
abbrev S2000x512 : Shape := ⟨2, ![2000, 512]⟩
abbrev S450000x512 : Shape := ⟨2, ![450000, 512]⟩
abbrev S1x512 : Shape := ⟨2, ![1, 512]⟩
abbrev S1x200000 : Shape := ⟨2, ![1, 200000]⟩
abbrev S200000 : Shape := ⟨1, ![200000]⟩
abbrev S200000x1 : Shape := ⟨2, ![200000, 1]⟩
abbrev S200000x512 : Shape := ⟨2, ![200000, 512]⟩
abbrev S1x1 : Shape := ⟨2, ![1, 1]⟩
abbrev S2000x1 : Shape := ⟨2, ![2000, 1]⟩

abbrev nBuf : Space → Nat
  | .hbm => 136
  | .vmem => 21
  | .smem => 0
  | _ => 0

abbrev hbmTy0_0 (i : Nat) : BufTy := match i % 128 with
  | 0 => ⟨S50000x512, .f32⟩
  | 1 => ⟨S2x400000, .i32⟩
  | 2 => ⟨S2x200000, .i32⟩
  | 3 => ⟨S512x512, .f32⟩
  | 4 => ⟨S512, .f32⟩
  | 5 => ⟨S512x512, .f32⟩
  | 6 => ⟨S512, .f32⟩
  | 7 => ⟨S1024x512, .f32⟩
  | 8 => ⟨S512, .f32⟩
  | 9 => ⟨S512x1, .f32⟩
  | 10 => ⟨S1, .f32⟩
  | 11 => ⟨S1x400000, .i32⟩
  | 12 => ⟨S400000, .i32⟩
  | 13 => ⟨S50000, .i32⟩
  | 14 => ⟨S450000, .i32⟩
  | 15 => ⟨S1x400000, .i32⟩
  | 16 => ⟨S400000, .i32⟩
  | 17 => ⟨S50000, .i32⟩
  | 18 => ⟨S450000, .i32⟩
  | 19 => ⟨S_, .f32⟩
  | 20 => ⟨S450000, .f32⟩
  | 21 => ⟨S_, .f32⟩
  | 22 => ⟨S50000, .f32⟩
  | 23 => ⟨S450000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S450000, .i32⟩
  | 38 => ⟨S450000, .i1⟩
  | 39 => ⟨S_, .i32⟩
  | 40 => ⟨S450000, .i32⟩
  | 41 => ⟨S450000, .i32⟩
  | 42 => ⟨S450000, .i32⟩
  | 43 => ⟨S450000x1, .i32⟩
  | 44 => ⟨S450000, .f32⟩
  | 45 => ⟨S_, .i32⟩
  | 46 => ⟨S450000, .i32⟩
  | 47 => ⟨S450000, .i1⟩
  | 48 => ⟨S_, .i32⟩
  | 49 => ⟨S450000, .i32⟩
  | 50 => ⟨S450000, .i32⟩
  | 51 => ⟨S450000, .i32⟩
  | 52 => ⟨S450000x1, .i32⟩
  | 53 => ⟨S450000, .f32⟩
  | 54 => ⟨S450000, .f32⟩
  | 55 => ⟨S512x512, .bf16⟩
  | 56 => ⟨S50000x512, .f32⟩
  | 57 => ⟨S50000x512, .bf16⟩
  | 58 => ⟨S_, .i32⟩
  | 59 => ⟨S450000, .i32⟩
  | 60 => ⟨S450000, .i1⟩
  | 61 => ⟨S_, .i32⟩
  | 62 => ⟨S450000, .i32⟩
  | 63 => ⟨S450000, .i32⟩
  | 64 => ⟨S450000, .i32⟩
  | 65 => ⟨S450000x1, .i32⟩
  | 66 => ⟨S450000x512, .bf16⟩
  | 67 => ⟨S450000x512, .f32⟩
  | 68 => ⟨S450000x1, .f32⟩
  | 69 => ⟨S450000x512, .f32⟩
  | 70 => ⟨S450000x512, .f32⟩
  | 71 => ⟨S_, .f32⟩
  | 72 => ⟨S50000x512, .f32⟩
  | 73 => ⟨S450000x1, .i32⟩
  | 74 => ⟨S50000x512, .f32⟩
  | 75 => ⟨S1x512, .f32⟩
  | 76 => ⟨S50000x512, .f32⟩
  | 77 => ⟨S50000x512, .f32⟩
  | 78 => ⟨S_, .f32⟩
  | 79 => ⟨S50000x512, .f32⟩
  | 80 => ⟨S50000x512, .f32⟩
  | 81 => ⟨S512x512, .bf16⟩
  | 82 => ⟨S50000x512, .f32⟩
  | 83 => ⟨S50000x512, .bf16⟩
  | 84 => ⟨S_, .i32⟩
  | 85 => ⟨S450000, .i32⟩
  | 86 => ⟨S450000, .i1⟩
  | 87 => ⟨S_, .i32⟩
  | 88 => ⟨S450000, .i32⟩
  | 89 => ⟨S450000, .i32⟩
  | 90 => ⟨S450000, .i32⟩
  | 91 => ⟨S450000x1, .i32⟩
  | 92 => ⟨S450000x512, .bf16⟩
  | 93 => ⟨S450000x512, .f32⟩
  | 94 => ⟨S450000x1, .f32⟩
  | 95 => ⟨S450000x512, .f32⟩
  | 96 => ⟨S450000x512, .f32⟩
  | 97 => ⟨S_, .f32⟩
  | 98 => ⟨S50000x512, .f32⟩
  | 99 => ⟨S450000x1, .i32⟩
  | 100 => ⟨S50000x512, .f32⟩
  | 101 => ⟨S1x512, .f32⟩
  | 102 => ⟨S50000x512, .f32⟩
  | 103 => ⟨S50000x512, .f32⟩
  | 104 => ⟨S512x512, .f32⟩
  | 105 => ⟨S512x512, .f32⟩
  | 106 => ⟨S50000x512, .bf16⟩
  | 107 => ⟨S1x200000, .i32⟩
  | 108 => ⟨S200000, .i32⟩
  | 109 => ⟨S_, .i32⟩
  | 110 => ⟨S200000, .i32⟩
  | 111 => ⟨S200000, .i1⟩
  | 112 => ⟨S_, .i32⟩
  | 113 => ⟨S200000, .i32⟩
  | 114 => ⟨S200000, .i32⟩
  | 115 => ⟨S200000, .i32⟩
  | 116 => ⟨S200000x1, .i32⟩
  | 117 => ⟨S200000x512, .bf16⟩
  | 118 => ⟨S1x200000, .i32⟩
  | 119 => ⟨S200000, .i32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S50000x512, .f32⟩

abbrev hbmTy0_1 (i : Nat) : BufTy := match i % 128 with
  | 0 => ⟨S200000x512, .bf16⟩
  | 1 => ⟨S512x512, .bf16⟩
  | 2 => ⟨S512x512, .bf16⟩
  | 3 => ⟨S512x1, .bf16⟩
  | 4 => ⟨S1x512, .f32⟩
  | 5 => ⟨S1x1, .f32⟩
  | 6 => ⟨S200000x1, .f32⟩
  | 7 => ⟨S200000, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x512, .bf16⟩
  | .local _ .vmem, ⟨8, _⟩ => ⟨S2000x512, .f32⟩
  | .local _ .vmem, ⟨9, _⟩ => ⟨S2000x512, .f32⟩
  | .local _ .vmem, ⟨10, _⟩ => ⟨S2000x512, .bf16⟩
  | .local _ .vmem, ⟨11, _⟩ => ⟨S2000x512, .bf16⟩
  | .local _ .vmem, ⟨12, _⟩ => ⟨S2000x512, .bf16⟩
  | .local _ .vmem, ⟨13, _⟩ => ⟨S2000x512, .bf16⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S512x1, .bf16⟩
  | .local _ .vmem, ⟨18, _⟩ => ⟨S1x1, .f32⟩
  | .local _ .vmem, ⟨19, _⟩ => ⟨S2000x1, .f32⟩
  | .local _ .vmem, ⟨20, _⟩ => ⟨S2000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_13 : Ref sig .tc := ⟨.hbm, 109, rfl⟩
abbrev main_v79 : Ref sig .tc := ⟨.hbm, 110, rfl⟩
abbrev main_v80 : Ref sig .tc := ⟨.hbm, 111, rfl⟩
abbrev main_c_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  shapeCasts_S2000x512_S2000x512 : S2000x512.ShapeCasts S2000x512
  slices_S1024x512_S512x512_0_0 : S1024x512.Slices ![0, 0] S512x512
  slices_S1024x512_S512x512_512_0 : S1024x512.Slices ![512, 0] S512x512
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  shapeCasts_S512_S1x512 : S512.ShapeCasts S1x512
  shapeCasts_S1_S1x1 : S1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S2000x512_S512x512_S2000x512_1_0_0_1_n_n_wf : DotDims.WF S2000x512 S512x512 S2000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  gather_S50000x512_S200000x1_S200000x512_1_0_n_n_0_1_1512_wf : GatherDims.WF S50000x512 S200000x1 S200000x512 [1] [0] [] [0] [] 1 ![1, 512]
  dot_S2000x512_S512x1_S2000x1_1_0_0_1_n_n_wf : DotDims.WF S2000x512 S512x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S200000x512.size a
  hwx2_0 : ∀ i : grid2.Coords, EltTy.bits .bf16 = 32 ∨ (Rect.block (s := S200000x512) S2000x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x512.size a ≤ S200000x512.size a
  hwx2_1 : ∀ i : grid2.Coords, EltTy.bits .bf16 = 32 ∨ (Rect.block (s := S200000x512) S2000x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S512x1.size a
  hwx2_5 : ∀ i : grid2.Coords, EltTy.bits .bf16 = 32 ∨ (Rect.block (s := S512x1) S512x1.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S200000x1.size a
  hwx2_7 : ∀ i : grid2.Coords, EltTy.bits .f32 = 32 ∨ (Rect.block (s := S200000x1) S2000x1.size (cc2_transform_7 i) (hinb2_7 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v85) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94) S2000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v95) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v96) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v98) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v97) S512x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v99) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v100) S2000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S2x200000 : Shape := ⟨2, ![2, 200000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S_ : Shape := ⟨0, ![]⟩
abbrev S450000x1 : Shape := ⟨2, ![450000, 1]⟩
abbrev S450000x512 : Shape := ⟨2, ![450000, 512]⟩
abbrev S1x512 : Shape := ⟨2, ![1, 512]⟩
abbrev S1x200000 : Shape := ⟨2, ![1, 200000]⟩
abbrev S200000 : Shape := ⟨1, ![200000]⟩
abbrev S200000x1 : Shape := ⟨2, ![200000, 1]⟩
abbrev S200000x512 : Shape := ⟨2, ![200000, 512]⟩
abbrev S200000x1024 : Shape := ⟨2, ![200000, 1024]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S50000x512, .f32⟩
  | 1 => ⟨S2x400000, .i32⟩
  | 2 => ⟨S2x200000, .i32⟩
  | 3 => ⟨S512x512, .f32⟩
  | 4 => ⟨S512, .f32⟩
  | 5 => ⟨S512x512, .f32⟩
  | 6 => ⟨S512, .f32⟩
  | 7 => ⟨S1024x512, .f32⟩
  | 8 => ⟨S512, .f32⟩
  | 9 => ⟨S512x1, .f32⟩
  | 10 => ⟨S1, .f32⟩
  | 11 => ⟨S1x400000, .i32⟩
  | 12 => ⟨S400000, .i32⟩
  | 13 => ⟨S50000, .i32⟩
  | 14 => ⟨S450000, .i32⟩
  | 15 => ⟨S1x400000, .i32⟩
  | 16 => ⟨S400000, .i32⟩
  | 17 => ⟨S50000, .i32⟩
  | 18 => ⟨S450000, .i32⟩
  | 19 => ⟨S_, .f32⟩
  | 20 => ⟨S450000, .f32⟩
  | 21 => ⟨S_, .f32⟩
  | 22 => ⟨S50000, .f32⟩
  | 23 => ⟨S450000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S450000, .i32⟩
  | 38 => ⟨S450000, .i1⟩
  | 39 => ⟨S_, .i32⟩
  | 40 => ⟨S450000, .i32⟩
  | 41 => ⟨S450000, .i32⟩
  | 42 => ⟨S450000, .i32⟩
  | 43 => ⟨S450000x1, .i32⟩
  | 44 => ⟨S450000, .f32⟩
  | 45 => ⟨S_, .i32⟩
  | 46 => ⟨S450000, .i32⟩
  | 47 => ⟨S450000, .i1⟩
  | 48 => ⟨S_, .i32⟩
  | 49 => ⟨S450000, .i32⟩
  | 50 => ⟨S450000, .i32⟩
  | 51 => ⟨S450000, .i32⟩
  | 52 => ⟨S450000x1, .i32⟩
  | 53 => ⟨S450000, .f32⟩
  | 54 => ⟨S450000, .f32⟩
  | 55 => ⟨S50000x512, .f32⟩
  | 56 => ⟨S_, .i32⟩
  | 57 => ⟨S450000, .i32⟩
  | 58 => ⟨S450000, .i1⟩
  | 59 => ⟨S_, .i32⟩
  | 60 => ⟨S450000, .i32⟩
  | 61 => ⟨S450000, .i32⟩
  | 62 => ⟨S450000, .i32⟩
  | 63 => ⟨S450000x1, .i32⟩
  | 64 => ⟨S450000x512, .f32⟩
  | 65 => ⟨S450000x1, .f32⟩
  | 66 => ⟨S450000x512, .f32⟩
  | 67 => ⟨S450000x512, .f32⟩
  | 68 => ⟨S_, .f32⟩
  | 69 => ⟨S50000x512, .f32⟩
  | 70 => ⟨S450000x1, .i32⟩
  | 71 => ⟨S50000x512, .f32⟩
  | 72 => ⟨S1x512, .f32⟩
  | 73 => ⟨S50000x512, .f32⟩
  | 74 => ⟨S50000x512, .f32⟩
  | 75 => ⟨S_, .f32⟩
  | 76 => ⟨S50000x512, .f32⟩
  | 77 => ⟨S50000x512, .f32⟩
  | 78 => ⟨S50000x512, .f32⟩
  | 79 => ⟨S_, .i32⟩
  | 80 => ⟨S450000, .i32⟩
  | 81 => ⟨S450000, .i1⟩
  | 82 => ⟨S_, .i32⟩
  | 83 => ⟨S450000, .i32⟩
  | 84 => ⟨S450000, .i32⟩
  | 85 => ⟨S450000, .i32⟩
  | 86 => ⟨S450000x1, .i32⟩
  | 87 => ⟨S450000x512, .f32⟩
  | 88 => ⟨S450000x1, .f32⟩
  | 89 => ⟨S450000x512, .f32⟩
  | 90 => ⟨S450000x512, .f32⟩
  | 91 => ⟨S_, .f32⟩
  | 92 => ⟨S50000x512, .f32⟩
  | 93 => ⟨S450000x1, .i32⟩
  | 94 => ⟨S50000x512, .f32⟩
  | 95 => ⟨S1x512, .f32⟩
  | 96 => ⟨S50000x512, .f32⟩
  | 97 => ⟨S50000x512, .f32⟩
  | 98 => ⟨S1x200000, .i32⟩
  | 99 => ⟨S200000, .i32⟩
  | 100 => ⟨S_, .i32⟩
  | 101 => ⟨S200000, .i32⟩
  | 102 => ⟨S200000, .i1⟩
  | 103 => ⟨S_, .i32⟩
  | 104 => ⟨S200000, .i32⟩
  | 105 => ⟨S200000, .i32⟩
  | 106 => ⟨S200000, .i32⟩
  | 107 => ⟨S200000x1, .i32⟩
  | 108 => ⟨S200000x512, .f32⟩
  | 109 => ⟨S1x200000, .i32⟩
  | 110 => ⟨S200000, .i32⟩
  | 111 => ⟨S_, .i32⟩
  | 112 => ⟨S200000, .i32⟩
  | 113 => ⟨S200000, .i1⟩
  | 114 => ⟨S_, .i32⟩
  | 115 => ⟨S200000, .i32⟩
  | 116 => ⟨S200000, .i32⟩
  | 117 => ⟨S200000, .i32⟩
  | 118 => ⟨S200000x1, .i32⟩
  | 119 => ⟨S200000x512, .f32⟩
  | 120 => ⟨S200000x1024, .f32⟩
  | 121 => ⟨S200000x512, .f32⟩
  | 122 => ⟨S1x512, .f32⟩
  | 123 => ⟨S200000x512, .f32⟩
  | 124 => ⟨S200000x512, .f32⟩
  | 125 => ⟨S_, .f32⟩
  | 126 => ⟨S200000x512, .f32⟩
  | 127 => ⟨S200000x512, .f32⟩
  | _ => ⟨S50000x512, .f32⟩

abbrev hbmTy0_1 (i : Nat) : BufTy := match i % 128 with
  | 0 => ⟨S200000x1, .f32⟩
  | 1 => ⟨S1x1, .f32⟩
  | 2 => ⟨S200000x1, .f32⟩
  | 3 => ⟨S200000x1, .f32⟩
  | 4 => ⟨S200000, .f32⟩
  | 5 => ⟨S200000, .f32⟩
  | 6 => ⟨S200000, .f32⟩
  | 7 => ⟨S_, .f32⟩
  | 8 => ⟨S200000, .f32⟩
  | 9 => ⟨S200000, .f32⟩
  | 10 => ⟨S_, .f32⟩
  | 11 => ⟨S200000, .f32⟩
  | 12 => ⟨S200000, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_13 : Ref sig .tc := ⟨.hbm, 100, rfl⟩
abbrev main_v70 : Ref sig .tc := ⟨.hbm, 101, rfl⟩
abbrev main_v71 : Ref sig .tc := ⟨.hbm, 102, rfl⟩
abbrev main_c_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_15 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call2_cst : Ref sig .tc := ⟨.hbm, 125, rfl⟩
abbrev main_call2_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_17 : Ref sig .tc := ⟨.hbm, 135, rfl⟩
abbrev main_v99 : Ref sig .tc := ⟨.hbm, 136, rfl⟩
abbrev main_v100 : Ref sig .tc := ⟨.hbm, 137, rfl⟩
abbrev main_cst_18 : Ref sig .tc := ⟨.hbm, 138, rfl⟩
abbrev main_v101 : Ref sig .tc := ⟨.hbm, 139, rfl⟩
abbrev main_v102 : Ref sig .tc := ⟨.hbm, 140, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x512_S200000x512_S200000x1024_d1 : Shape.Concatenates [S200000x512, S200000x512] S200000x1024 1
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x512_S512x512_S50000x512_1_0_0_1_n_n_wf : DotDims.WF S50000x512 S512x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  gather_S50000x512_S200000x1_S200000x512_1_0_n_n_0_1_1512_wf : GatherDims.WF S50000x512 S200000x1 S200000x512 [1] [0] [] [0] [] 1 ![1, 512]
  dot_S200000x1024_S1024x512_S200000x512_1_0_0_1_n_n_wf : DotDims.WF S200000x1024 S1024x512 S200000x512 [1] [0] [0] [1] [] []
  dot_S200000x512_S512x1_S200000x1_1_0_0_1_n_n_wf : DotDims.WF S200000x512 S512x1 S200000x1 [1] [0] [0] [1] [] []

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def dot_S200000x1024_S1024x512_S200000x512_1_0_0_1_n_n : DotDims S200000x1024 S1024x512 S200000x512 where
  lhsContracting := [1]
  rhsContracting := [0]
  lhsNonContracting := [0]
  rhsNonContracting := [1]
  lhsBatch := []
  rhsBatch := []
  wf := dot_S200000x1024_S1024x512_S200000x512_1_0_0_1_n_n_wf
def dot_S200000x512_S512x1_S200000x1_1_0_0_1_n_n : DotDims S200000x512 S512x1 S200000x1 where
  lhsContracting := [1]
  rhsContracting := [0]
  lhsNonContracting := [0]
  rhsNonContracting := [1]
  lhsBatch := []
  rhsBatch := []
  wf := dot_S200000x512_S512x1_S200000x1_1_0_0_1_n_n_wf

class Facts : Prop extends Facts₀ where

variable [Facts]
-- ==== Proof.KernelRun.lean ====
/-
  The blocked program's run with its result named: every weakly fair execution of @main terminates, nothing faults,
  and in the final state the result buffer holds what the last boundary of the fold through @main holds there
  (`Gen.W11`: the launch memory carried through every stretch of host operations and every region's write-backs),
  while the argument arrays are as launched: every unscoped buffer is read off the last thread state, the result
  buffer among them.
-/
import proofs.«174413_j66571993088847_2_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main with the result buffer read at the last boundary's contents. -/
theorem run_value : θ_run defs (onTc (τ := τ) (main (F := F))) ⟨m, fun _ => 0, ρ⟩ (fun r => ∀ c : Dev nD,
      r.2.mem ((c.tc : Thread nD τ).loc main_v101) = W11 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v101 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.RunValue

end
-- ==== Proof.RefStages.lean ====
/-
  The plain program's stages between its matrix products, as functions of the arrays they consume.

  The generated reading of the plain program states every stage as a function of @main's arguments. The blocked
  program computes the matrix products elsewhere (in its pallas regions), so the comparison needs the stages between
  the products as functions of what flows INTO them:
  * `normOf d s t`: the edge coefficients d[s] · d[t] from the per-node coefficient d and the two edge lists (a
    negative index is shifted by the node count before the gather);
  * `layerOf xw s t nrm b`: one graph-convolution layer from the product xw = x · W: gather the rows of xw at the
    sources, scale row e by nrm e, scatter-add into the targets' rows of a zero array, add the bias to every row;
  * `pairRows0 z pr`, `pairRows1 z pr`: the rows of z at the first and at the second node of every pair.
  Each stage of the plain program is the corresponding function of the stages before it; both layers are the one
  function `layerOf`.
-/
import proofs.«174413_j66571993088847_2_alg».proof.Proof.RefRead

noncomputable section

namespace Cert.ReferenceIdeal.Stages

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The edge coefficients d[s] · d[t]. -/
def normOf (d : (⟨S50000, .f32⟩ : BufTy).Contents (Elt F)) (s t : (⟨S450000, .i32⟩ : BufTy).Contents (Elt F)) : (⟨S450000, .f32⟩ : BufTy).Contents (Elt F) :=
  mulf (Host.gather gather_S50000_S450000x1_S450000_n_0_n_n_0_1_1 d (broadcastInDim S450000x1 ![0] bcast_S450000_S450000x1_0 (select (cmpi .slt s (broadcastInDim S450000 ![] bcast_S_S450000 (constantI S_ 32 0#32))) (addi s (broadcastInDim S450000 ![] bcast_S_S450000 (constantI S_ 32 50000#32))) s))) (Host.gather gather_S50000_S450000x1_S450000_n_0_n_n_0_1_1 d (broadcastInDim S450000x1 ![0] bcast_S450000_S450000x1_0 (select (cmpi .slt t (broadcastInDim S450000 ![] bcast_S_S450000 (constantI S_ 32 0#32))) (addi t (broadcastInDim S450000 ![] bcast_S_S450000 (constantI S_ 32 50000#32))) t)))

/-- One graph-convolution layer from the product `xw`. -/
def layerOf (xw : (⟨S50000x512, .f32⟩ : BufTy).Contents (Elt F)) (s t : (⟨S450000, .i32⟩ : BufTy).Contents (Elt F)) (nrm : (⟨S450000, .f32⟩ : BufTy).Contents (Elt F)) (b : (⟨S512, .f32⟩ : BufTy).Contents (Elt F)) : (⟨S50000x512, .f32⟩ : BufTy).Contents (Elt F) :=
  addf (Host.scatterAdd scatter_S50000x512_S450000x1_S450000x512_1_0_0_1 (broadcastInDim S50000x512 ![] bcast_S_S50000x512 (constant S_ .f32 0x00000000#32)) (broadcastInDim S450000x1 ![0] bcast_S450000_S450000x1_0 t) (mulf (Host.gather gather_S50000x512_S450000x1_S450000x512_1_0_n_n_0_1_1512 xw (broadcastInDim S450000x1 ![0] bcast_S450000_S450000x1_0 (select (cmpi .slt s (broadcastInDim S450000 ![] bcast_S_S450000 (constantI S_ 32 0#32))) (addi s (broadcastInDim S450000 ![] bcast_S_S450000 (constantI S_ 32 50000#32))) s))) (broadcastInDim S450000x512 ![0, 1] bcast_S450000x1_S450000x512_0_1 (broadcastInDim S450000x1 ![0] bcast_S450000_S450000x1_0 nrm)))) (broadcastInDim S50000x512 ![0, 1] bcast_S1x512_S50000x512_0_1 (broadcastInDim S1x512 ![1] bcast_S512_S1x512_1 (b)))

/-- The rows of `z` at the pairs' first nodes. -/
def pairRows0 (z : (⟨S50000x512, .f32⟩ : BufTy).Contents (Elt F)) (pr : (⟨S2x200000, .i32⟩ : BufTy).Contents (Elt F)) : (⟨S200000x512, .f32⟩ : BufTy).Contents (Elt F) :=
  Host.gather gather_S50000x512_S200000x1_S200000x512_1_0_n_n_0_1_1512 z (broadcastInDim S200000x1 ![0] bcast_S200000_S200000x1_0 (select (cmpi .slt (shapeCast _ (extractStridedSlice S1x200000 ![0, 0] (pr) slices_S2x200000_S1x200000_0_0) shapeCasts_S1x200000_S200000) (broadcastInDim S200000 ![] bcast_S_S200000 (constantI S_ 32 0#32))) (addi (shapeCast _ (extractStridedSlice S1x200000 ![0, 0] (pr) slices_S2x200000_S1x200000_0_0) shapeCasts_S1x200000_S200000) (broadcastInDim S200000 ![] bcast_S_S200000 (constantI S_ 32 50000#32))) (shapeCast _ (extractStridedSlice S1x200000 ![0, 0] (pr) slices_S2x200000_S1x200000_0_0) shapeCasts_S1x200000_S200000)))

/-- The rows of `z` at the pairs' second nodes. -/
def pairRows1 (z : (⟨S50000x512, .f32⟩ : BufTy).Contents (Elt F)) (pr : (⟨S2x200000, .i32⟩ : BufTy).Contents (Elt F)) : (⟨S200000x512, .f32⟩ : BufTy).Contents (Elt F) :=
  Host.gather gather_S50000x512_S200000x1_S200000x512_1_0_n_n_0_1_1512 z (broadcastInDim S200000x1 ![0] bcast_S200000_S200000x1_0 (select (cmpi .slt (shapeCast _ (extractStridedSlice S1x200000 ![1, 0] (pr) slices_S2x200000_S1x200000_1_0) shapeCasts_S1x200000_S200000) (broadcastInDim S200000 ![] bcast_S_S200000 (constantI S_ 32 0#32))) (addi (shapeCast _ (extractStridedSlice S1x200000 ![1, 0] (pr) slices_S2x200000_S1x200000_1_0) shapeCasts_S1x200000_S200000) (broadcastInDim S200000 ![] bcast_S_S200000 (constantI S_ 32 50000#32))) (shapeCast _ (extractStridedSlice S1x200000 ![1, 0] (pr) slices_S2x200000_S1x200000_1_0) shapeCasts_S1x200000_S200000)))

variable (x0 : (⟨S50000x512, .f32⟩ : BufTy).Contents (Elt F)) (x1 : (⟨S2x400000, .i32⟩ : BufTy).Contents (Elt F)) (x2 : (⟨S2x200000, .i32⟩ : BufTy).Contents (Elt F)) (x3 : (⟨S512x512, .f32⟩ : BufTy).Contents (Elt F)) (x4 : (⟨S512, .f32⟩ : BufTy).Contents (Elt F)) (x5 : (⟨S512x512, .f32⟩ : BufTy).Contents (Elt F)) (x6 : (⟨S512, .f32⟩ : BufTy).Contents (Elt F))

/-- The per-node coefficient is the selection between the reciprocal square root and zero. -/
theorem coef_eq : val_main_v17 (F := F) x1
    = select (val_main_v13 (F := F) x1) (val_main_v16 (F := F) x1) (broadcastInDim S50000 ![] bcast_S_S50000 (constant S_ .f32 0x00000000#32)) := by
  unfold val_main_v17 val_main_call0_v1 val_main_call0_v0 val_main_cst_3
  rfl

theorem norm_eq : val_main_v32 (F := F) x1 = normOf (val_main_v17 (F := F) x1) (val_main_v3 (F := F) x1) (val_main_v7 (F := F) x1) := by
  unfold normOf val_main_v32 val_main_v24 val_main_v23 val_main_v22 val_main_v19 val_main_v18 val_main_c val_main_v21 val_main_v20 val_main_c_4 val_main_v31 val_main_v30 val_main_v29 val_main_v26 val_main_v25 val_main_c_5 val_main_v28 val_main_v27 val_main_c_6
  rfl

theorem layer1_eq : val_main_v49 (F := F) x0 x1 x3 x4
    = layerOf (val_main_v33 (F := F) x0 x3) (val_main_v3 (F := F) x1) (val_main_v7 (F := F) x1) (val_main_v32 (F := F) x1) x4 := by
  unfold layerOf val_main_v49 val_main_v46 val_main_v44 val_main_cst_9 val_main_v45 val_main_v43 val_main_v40 val_main_v39 val_main_v38 val_main_v35 val_main_v34 val_main_c_7 val_main_v37 val_main_v36 val_main_c_8 val_main_v42 val_main_v41 val_main_v48 val_main_v47
  rfl

theorem relu_eq : val_main_v50 (F := F) x0 x1 x3 x4
    = maximumf (val_main_v49 (F := F) x0 x1 x3 x4) (broadcastInDim S50000x512 ![] bcast_S_S50000x512 (constant S_ .f32 0x00000000#32)) := by
  unfold val_main_v50 val_main_call1_v0 val_main_call1_cst
  rfl

theorem layer2_eq : val_main_v67 (F := F) x0 x1 x3 x4 x5 x6
    = layerOf (val_main_v51 (F := F) x0 x1 x3 x4 x5) (val_main_v3 (F := F) x1) (val_main_v7 (F := F) x1) (val_main_v32 (F := F) x1) x6 := by
  unfold layerOf val_main_v67 val_main_v64 val_main_v62 val_main_cst_12 val_main_v63 val_main_v61 val_main_v58 val_main_v57 val_main_v56 val_main_v53 val_main_v52 val_main_c_10 val_main_v55 val_main_v54 val_main_c_11 val_main_v60 val_main_v59 val_main_v66 val_main_v65
  rfl

theorem pair0_eq : val_main_v76 (F := F) x0 x1 x2 x3 x4 x5 x6 = pairRows0 (val_main_v67 (F := F) x0 x1 x3 x4 x5 x6) x2 := by
  unfold pairRows0 val_main_v76 val_main_v75 val_main_v74 val_main_v71 val_main_v69 val_main_v68 val_main_v70 val_main_c_13 val_main_v73 val_main_v72 val_main_c_14
  rfl

theorem pair1_eq : val_main_v85 (F := F) x0 x1 x2 x3 x4 x5 x6 = pairRows1 (val_main_v67 (F := F) x0 x1 x3 x4 x5 x6) x2 := by
  unfold pairRows1 val_main_v85 val_main_v84 val_main_v83 val_main_v80 val_main_v78 val_main_v77 val_main_v79 val_main_c_15 val_main_v82 val_main_v81 val_main_c_16
  rfl

end Cert.ReferenceIdeal.Stages

end
-- ==== Proof.Spec.lean ====
/-
  The whole-array functions in which the bridge between the two programs is stated, over the extended reals.

  `mm x w` is the plain matrix product of node features [50000, 512] with a weight matrix [512, 512]: entry (p, q) is the
  sum over k < 512 of x (p, k) · w (k, q).

  The link predictor scores a pair p from the two gathered node rows hl (p, ·) and hr (p, ·): with the hidden layer
  h (p, k) = max (Σ_j hl (p, j) · A (j, k) + Σ_j hr (p, j) · B (j, k) + b₁ k) 0, the score is the logistic function of
  Σ_k h (p, k) · w₂ k + b₂. `mlpK` states it over the operands as the blocked program holds them (the two halves A and B of
  the first layer's weight as separate [512, 512] matrices, the biases as a [1, 512] row and a [1, 1] cell, the result a
  [200000, 1] column); `mlpRef` over the arguments themselves (the first layer's weight one [1024, 512] matrix whose rows
  512 … 1023 are B, the biases vectors, the result a vector of 200000 scores). `mlp_eq` says the two agree when the
  blocked operands are those pieces of the arguments.
-/
import Idealize.ShloMosaic.PureOps.Ideal
import Idealize.ShloMosaic.Lib.ValueIdx

noncomputable section

namespace Cert.Spec

open Idealize.ShloMosaic Idealize.ShloMosaic.ValueIdx

/-- Entry (p, q) of the product [50000, 512] · [512, 512]. -/
def mm (x : (⟨2, ![50000, 512]⟩ : Shape).Idx → EReal) (w : (⟨2, ![512, 512]⟩ : Shape).Idx → EReal) :
    (⟨2, ![50000, 512]⟩ : Shape).Idx → EReal :=
  fun i =>
    let p : Fin 50000 := i 0
    let q : Fin 512 := i 1
    ∑ k : Fin 512, x (ix2 p k) * w (ix2 k q)

theorem mm_apply (x : (⟨2, ![50000, 512]⟩ : Shape).Idx → EReal) (w : (⟨2, ![512, 512]⟩ : Shape).Idx → EReal)
    (p : Fin 50000) (q : Fin 512) : mm x w (ix2 p q) = ∑ k : Fin 512, x (ix2 p k) * w (ix2 k q) := rfl

/-- The hidden layer of the link predictor at pair `p`, unit `k`, from the two halves of the first weight. -/
def hidden (hl hr : (⟨2, ![200000, 512]⟩ : Shape).Idx → EReal) (wa wb : Fin 512 → Fin 512 → EReal) (b1 : Fin 512 → EReal)
    (p : Fin 200000) (k : Fin 512) : EReal :=
  max (((∑ j : Fin 512, hl (ix2 p j) * wa j k) + (∑ j : Fin 512, hr (ix2 p j) * wb j k)) + b1 k) 0

/-- The score of pair `p`. -/
def score (hl hr : (⟨2, ![200000, 512]⟩ : Shape).Idx → EReal) (wa wb : Fin 512 → Fin 512 → EReal) (b1 w2 : Fin 512 → EReal)
    (b2 : EReal) (p : Fin 200000) : EReal :=
  Ideal.logistic ((∑ k : Fin 512, hidden hl hr wa wb b1 p k * w2 k) + b2)

/-- The scores as the blocked program's [200000, 1] column, over its operands. -/
def mlpK (hl hr : (⟨2, ![200000, 512]⟩ : Shape).Idx → EReal) (wa wb : (⟨2, ![512, 512]⟩ : Shape).Idx → EReal)
    (b1 : (⟨2, ![1, 512]⟩ : Shape).Idx → EReal) (w2 : (⟨2, ![512, 1]⟩ : Shape).Idx → EReal)
    (b2 : (⟨2, ![1, 1]⟩ : Shape).Idx → EReal) : (⟨2, ![200000, 1]⟩ : Shape).Idx → EReal :=
  fun i =>
    let p : Fin 200000 := i 0
    score hl hr (fun j k => wa (ix2 j k)) (fun j k => wb (ix2 j k)) (fun k => b1 (ix2 (0 : Fin 1) k))
      (fun k => w2 (ix2 k (0 : Fin 1))) (b2 (ix2 (0 : Fin 1) (0 : Fin 1))) p

theorem mlpK_apply (hl hr : (⟨2, ![200000, 512]⟩ : Shape).Idx → EReal) (wa wb : (⟨2, ![512, 512]⟩ : Shape).Idx → EReal)
    (b1 : (⟨2, ![1, 512]⟩ : Shape).Idx → EReal) (w2 : (⟨2, ![512, 1]⟩ : Shape).Idx → EReal)
    (b2 : (⟨2, ![1, 1]⟩ : Shape).Idx → EReal) (p : Fin 200000) (u : Fin 1) :
    mlpK hl hr wa wb b1 w2 b2 (ix2 p u)
      = score hl hr (fun j k => wa (ix2 j k)) (fun j k => wb (ix2 j k)) (fun k => b1 (ix2 (0 : Fin 1) k))
          (fun k => w2 (ix2 k (0 : Fin 1))) (b2 (ix2 (0 : Fin 1) (0 : Fin 1))) p := rfl

/-- The scores as the vector of 200000 the plain program returns, over the arguments. -/
def mlpRef (hl hr : (⟨2, ![200000, 512]⟩ : Shape).Idx → EReal) (x7 : (⟨2, ![1024, 512]⟩ : Shape).Idx → EReal)
    (x8 : (⟨1, ![512]⟩ : Shape).Idx → EReal) (x9 : (⟨2, ![512, 1]⟩ : Shape).Idx → EReal)
    (x10 : (⟨1, ![1]⟩ : Shape).Idx → EReal) : (⟨1, ![200000]⟩ : Shape).Idx → EReal :=
  fun i =>
    let p : Fin 200000 := i 0
    score hl hr (fun j k => x7 (ix2 (Fin.castAdd 512 j : Fin (512 + 512)) k)) (fun j k => x7 (ix2 (Fin.natAdd 512 j : Fin (512 + 512)) k))
      (fun k => x8 (ix1 k)) (fun k => x9 (ix2 k (0 : Fin 1))) (x10 (ix1 (0 : Fin 1))) p

theorem mlpRef_apply (hl hr : (⟨2, ![200000, 512]⟩ : Shape).Idx → EReal) (x7 : (⟨2, ![1024, 512]⟩ : Shape).Idx → EReal)
    (x8 : (⟨1, ![512]⟩ : Shape).Idx → EReal) (x9 : (⟨2, ![512, 1]⟩ : Shape).Idx → EReal)
    (x10 : (⟨1, ![1]⟩ : Shape).Idx → EReal) (p : Fin 200000) :
    mlpRef hl hr x7 x8 x9 x10 (ix1 p)
      = score hl hr (fun j k => x7 (ix2 (Fin.castAdd 512 j : Fin (512 + 512)) k)) (fun j k => x7 (ix2 (Fin.natAdd 512 j : Fin (512 + 512)) k))
          (fun k => x8 (ix1 k)) (fun k => x9 (ix2 k (0 : Fin 1))) (x10 (ix1 (0 : Fin 1))) p := rfl

end Cert.Spec

end
-- ==== Proof.SpecBridge.lean ====
/-
  The link predictor's score over the blocked program's operands is its score over the arguments, when the blocked
  operands are the pieces of the arguments they are cut from: the two [512, 512] halves of the [1024, 512] first
  weight (rows j and 512 + j), the first bias as a [1, 512] row, the second weight column, the second bias as a
  [1, 1] cell. Both sides are the same `score`, so nothing about sums or the logistic function is used.
-/
import proofs.«174413_j66571993088847_2_alg».proof.Proof.Spec

noncomputable section

namespace Cert.Spec

open Idealize.ShloMosaic Idealize.ShloMosaic.ValueIdx

theorem mlp_eq (hl hr : (⟨2, ![200000, 512]⟩ : Shape).Idx → EReal) (x7 : (⟨2, ![1024, 512]⟩ : Shape).Idx → EReal)
    (x8 : (⟨1, ![512]⟩ : Shape).Idx → EReal) (x9 : (⟨2, ![512, 1]⟩ : Shape).Idx → EReal) (x10 : (⟨1, ![1]⟩ : Shape).Idx → EReal)
    (wa wb : (⟨2, ![512, 512]⟩ : Shape).Idx → EReal) (b1 : (⟨2, ![1, 512]⟩ : Shape).Idx → EReal)
    (w2 : (⟨2, ![512, 1]⟩ : Shape).Idx → EReal) (b2 : (⟨2, ![1, 1]⟩ : Shape).Idx → EReal)
    (hwa : ∀ (j k : Fin 512), wa (ix2 j k) = x7 (ix2 (Fin.castAdd 512 j : Fin (512 + 512)) k))
    (hwb : ∀ (j k : Fin 512), wb (ix2 j k) = x7 (ix2 (Fin.natAdd 512 j : Fin (512 + 512)) k))
    (hb1 : ∀ k : Fin 512, b1 (ix2 (0 : Fin 1) k) = x8 (ix1 k))
    (hw2 : ∀ k : Fin 512, w2 (ix2 k (0 : Fin 1)) = x9 (ix2 k (0 : Fin 1)))
    (hb2 : b2 (ix2 (0 : Fin 1) (0 : Fin 1)) = x10 (ix1 (0 : Fin 1))) (p : Fin 200000) :
    mlpK hl hr wa wb b1 w2 b2 (ix2 p (0 : Fin 1)) = mlpRef hl hr x7 x8 x9 x10 (ix1 p) := by
  rw [mlpK_apply, mlpRef_apply]
  simp only [hwa, hwb, hb1, hw2, hb2]

end Cert.Spec

end
-- ==== Proof.HostSide.lean ====
/-
  The blocked program's buffers at the boundaries of @main, read as the plain program's stages.

  @main of the blocked program is the plain program's line of host operations with its three matrix products replaced by
  pallas regions (and format changes around them, which are the identity on the extended reals). Each stretch of host
  operations is read over ANY contents at its start: a host operation's result is its function of its operands'
  contents, a buffer the stretch does not write keeps its contents, so a buffer at the stretch's end is one function of
  a few buffers at its start — the per-node coefficient from the degree's mask and reciprocal square root, the edge
  coefficients d[s] · d[t], one graph-convolution layer from a matrix product (gather of its rows, scaling, scatter-add,
  bias), the gathered pair rows. These are the plain program's stages as functions of what flows into them
  (`normOf`, `layerOf`, `pairRows0`, `pairRows1`), the two programs' dimension records being the same records. Chaining
  the stretches from the launch memory through the regions, every buffer a region reads or a later stretch consumes
  holds the corresponding stage of the plain program as a whole array. The first two regions' results enter as
  hypotheses (`h0`, `h1`: each region's output array is the matrix product of its two operand arrays at entry), as
  does the plain program's contraction being that same product (`hd`).
-/
import proofs.«174413_j66571993088847_2_alg».proof.Proof.Gen.KernelIdeal.Frame
import proofs.«174413_j66571993088847_2_alg».proof.Proof.RefRead
import proofs.«174413_j66571993088847_2_alg».proof.Proof.RefStages
import proofs.«174413_j66571993088847_2_alg».proof.Proof.SpecBridge
import Idealize.ShloMosaic.Lib.Pipeline.Value
import Idealize.ShloMosaic.Lib.ValueIdx
import Mathlib.Tactic.DefEqTransformations

set_option maxRecDepth 16384

noncomputable section

namespace Cert.Bridge

open Cert.KernelIdeal Cert.KernelIdeal.Gen Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The stretch after the second region in two parts: the second layer, then the link predictor's operands -/

section Split

variable {F : FTy → Type} [FloatOps F]

/-- The second layer's operations (from the second region's product to the layer's output). -/
abbrev layerOps2 : List (HloOp τ sig (Elt F)) :=
  ( StableHlo.unary main_v55 main_v56 ((truncf .bf16 · bitsLt_bf16_f32) : (⟨S50000x512, .f32⟩ : BufTy).Contents (Elt F) → (⟨S50000x512, .bf16⟩ : BufTy).Contents (Elt F))
  :: StableHlo.nullary main_c_10 (constantI S_ 32 0#32)
  :: StableHlo.unary main_c_10 main_v57 (broadcastInDim S450000 ![] bcast_S_S450000 : (⟨S_, .i32⟩ : BufTy).Contents (Elt F) → (⟨S450000, .i32⟩ : BufTy).Contents (Elt F))
  :: StableHlo.binary main_v3 main_v57 main_v58 (cmpi .slt : (⟨S450000, .i32⟩ : BufTy).Contents (Elt F) → (⟨S450000, .i32⟩ : BufTy).Contents (Elt F) → (⟨S450000, .i1⟩ : BufTy).Contents (Elt F))
  :: StableHlo.nullary main_c_11 (constantI S_ 32 50000#32)
  :: StableHlo.unary main_c_11 main_v59 (broadcastInDim S450000 ![] bcast_S_S450000 : (⟨S_, .i32⟩ : BufTy).Contents (Elt F) → (⟨S450000, .i32⟩ : BufTy).Contents (Elt F))
  :: StableHlo.binary main_v3 main_v59 main_v60 (addi : (⟨S450000, .i32⟩ : BufTy).Contents (Elt F) → (⟨S450000, .i32⟩ : BufTy).Contents (Elt F) → (⟨S450000, .i32⟩ : BufTy).Contents (Elt F))
  :: StableHlo.ternary main_v58 main_v60 main_v3 main_v61 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F))
  :: StableHlo.unary main_v61 main_v62 (broadcastInDim S450000x1 ![0] bcast_S450000_S450000x1_0 : (⟨S450000, .i32⟩ : BufTy).Contents (Elt F) → (⟨S450000x1, .i32⟩ : BufTy).Contents (Elt F))
  :: StableHlo.binary main_v56 main_v62 main_v63 ((fun x i => Host.gather gather_S50000x512_S450000x1_S450000x512_1_0_n_n_0_1_1512 x i) : (⟨S50000x512, .bf16⟩ : BufTy).Contents (Elt F) → (⟨S450000x1, .i32⟩ : BufTy).Contents (Elt F) → (⟨S450000x512, .bf16⟩ : BufTy).Contents (Elt F))
  :: StableHlo.unary main_v63 main_v64 ((extf .f32 · bitsLt_bf16_f32) : (⟨S450000x512, .bf16⟩ : BufTy).Contents (Elt F) → (⟨S450000x512, .f32⟩ : BufTy).Contents (Elt F))
  :: StableHlo.unary main_v32 main_v65 (broadcastInDim S450000x1 ![0] bcast_S450000_S450000x1_0 : (⟨S450000, .f32⟩ : BufTy).Contents (Elt F) → (⟨S450000x1, .f32⟩ : BufTy).Contents (Elt F))
  :: StableHlo.unary main_v65 main_v66 (broadcastInDim S450000x512 ![0, 1] bcast_S450000x1_S450000x512_0_1 : (⟨S450000x1, .f32⟩ : BufTy).Contents (Elt F) → (⟨S450000x512, .f32⟩ : BufTy).Contents (Elt F))
  :: StableHlo.binary main_v64 main_v66 main_v67 (mulf : (⟨S450000x512, .f32⟩ : BufTy).Contents (Elt F) → (⟨S450000x512, .f32⟩ : BufTy).Contents (Elt F) → (⟨S450000x512, .f32⟩ : BufTy).Contents (Elt F))
  :: StableHlo.nullary main_cst_12 (constant S_ .f32 0x00000000#32)
  :: StableHlo.unary main_cst_12 main_v68 (broadcastInDim S50000x512 ![] bcast_S_S50000x512 : (⟨S_, .f32⟩ : BufTy).Contents (Elt F) → (⟨S50000x512, .f32⟩ : BufTy).Contents (Elt F))
  :: StableHlo.unary main_v7 main_v69 (broadcastInDim S450000x1 ![0] bcast_S450000_S450000x1_0 : (⟨S450000, .i32⟩ : BufTy).Contents (Elt F) → (⟨S450000x1, .i32⟩ : BufTy).Contents (Elt F))
  :: StableHlo.ternary main_v68 main_v69 main_v67 main_v70 ((fun x i u => Host.scatterAdd scatter_S50000x512_S450000x1_S450000x512_1_0_0_1 x i u) : (⟨S50000x512, .f32⟩ : BufTy).Contents (Elt F) → (⟨S450000x1, .i32⟩ : BufTy).Contents (Elt F) → (⟨S450000x512, .f32⟩ : BufTy).Contents (Elt F) → (⟨S50000x512, .f32⟩ : BufTy).Contents (Elt F))
  :: StableHlo.unary main_arg6 main_v71 (broadcastInDim S1x512 ![1] bcast_S512_S1x512_1 : (⟨S512, .f32⟩ : BufTy).Contents (Elt F) → (⟨S1x512, .f32⟩ : BufTy).Contents (Elt F))
  :: StableHlo.unary main_v71 main_v72 (broadcastInDim S50000x512 ![0, 1] bcast_S1x512_S50000x512_0_1 : (⟨S1x512, .f32⟩ : BufTy).Contents (Elt F) → (⟨S50000x512, .f32⟩ : BufTy).Contents (Elt F))
  :: StableHlo.binary main_v70 main_v72 main_v73 (addf : (⟨S50000x512, .f32⟩ : BufTy).Contents (Elt F) → (⟨S50000x512, .f32⟩ : BufTy).Contents (Elt F) → (⟨S50000x512, .f32⟩ : BufTy).Contents (Elt F))
  :: [] )

/-- The operations that prepare the link predictor's operands from the second layer's output and the arguments. -/
abbrev pairOps : List (HloOp τ sig (Elt F)) :=
  ( StableHlo.unary main_arg7 main_v74 ((extractStridedSlice S512x512 ![0, 0] · slices_S1024x512_S512x512_0_0) : (⟨S1024x512, .f32⟩ : BufTy).Contents (Elt F) → (⟨S512x512, .f32⟩ : BufTy).Contents (Elt F))
  :: StableHlo.unary main_arg7 main_v75 ((extractStridedSlice S512x512 ![512, 0] · slices_S1024x512_S512x512_512_0) : (⟨S1024x512, .f32⟩ : BufTy).Contents (Elt F) → (⟨S512x512, .f32⟩ : BufTy).Contents (Elt F))
  :: StableHlo.unary main_v73 main_v76 ((truncf .bf16 · bitsLt_bf16_f32) : (⟨S50000x512, .f32⟩ : BufTy).Contents (Elt F) → (⟨S50000x512, .bf16⟩ : BufTy).Contents (Elt F))
  :: StableHlo.unary main_arg2 main_v77 ((extractStridedSlice S1x200000 ![0, 0] · slices_S2x200000_S1x200000_0_0) : (⟨S2x200000, .i32⟩ : BufTy).Contents (Elt F) → (⟨S1x200000, .i32⟩ : BufTy).Contents (Elt F))
  :: StableHlo.reshape main_v77 main_v78 rfl shapeCasts_S1x200000_S200000
  :: StableHlo.nullary main_c_13 (constantI S_ 32 0#32)
  :: StableHlo.unary main_c_13 main_v79 (broadcastInDim S200000 ![] bcast_S_S200000 : (⟨S_, .i32⟩ : BufTy).Contents (Elt F) → (⟨S200000, .i32⟩ : BufTy).Contents (Elt F))
  :: StableHlo.binary main_v78 main_v79 main_v80 (cmpi .slt : (⟨S200000, .i32⟩ : BufTy).Contents (Elt F) → (⟨S200000, .i32⟩ : BufTy).Contents (Elt F) → (⟨S200000, .i1⟩ : BufTy).Contents (Elt F))
  :: StableHlo.nullary main_c_14 (constantI S_ 32 50000#32)
  :: StableHlo.unary main_c_14 main_v81 (broadcastInDim S200000 ![] bcast_S_S200000 : (⟨S_, .i32⟩ : BufTy).Contents (Elt F) → (⟨S200000, .i32⟩ : BufTy).Contents (Elt F))
  :: StableHlo.binary main_v78 main_v81 main_v82 (addi : (⟨S200000, .i32⟩ : BufTy).Contents (Elt F) → (⟨S200000, .i32⟩ : BufTy).Contents (Elt F) → (⟨S200000, .i32⟩ : BufTy).Contents (Elt F))
  :: StableHlo.ternary main_v80 main_v82 main_v78 main_v83 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v83 main_v84 (broadcastInDim S200000x1 ![0] bcast_S200000_S200000x1_0 : (⟨S200000, .i32⟩ : BufTy).Contents (Elt F) → (⟨S200000x1, .i32⟩ : BufTy).Contents (Elt F))
  :: StableHlo.binary main_v76 main_v84 main_v85 ((fun x i => Host.gather gather_S50000x512_S200000x1_S200000x512_1_0_n_n_0_1_1512 x i) : (⟨S50000x512, .bf16⟩ : BufTy).Contents (Elt F) → (⟨S200000x1, .i32⟩ : BufTy).Contents (Elt F) → (⟨S200000x512, .bf16⟩ : BufTy).Contents (Elt F))
  :: StableHlo.unary main_arg2 main_v86 ((extractStridedSlice S1x200000 ![1, 0] · slices_S2x200000_S1x200000_1_0) : (⟨S2x200000, .i32⟩ : BufTy).Contents (Elt F) → (⟨S1x200000, .i32⟩ : BufTy).Contents (Elt F))
  :: StableHlo.reshape main_v86 main_v87 rfl shapeCasts_S1x200000_S200000
  :: StableHlo.nullary main_c_15 (constantI S_ 32 0#32)
  :: StableHlo.unary main_c_15 main_v88 (broadcastInDim S200000 ![] bcast_S_S200000 : (⟨S_, .i32⟩ : BufTy).Contents (Elt F) → (⟨S200000, .i32⟩ : BufTy).Contents (Elt F))
  :: StableHlo.binary main_v87 main_v88 main_v89 (cmpi .slt : (⟨S200000, .i32⟩ : BufTy).Contents (Elt F) → (⟨S200000, .i32⟩ : BufTy).Contents (Elt F) → (⟨S200000, .i1⟩ : BufTy).Contents (Elt F))
  :: StableHlo.nullary main_c_16 (constantI S_ 32 50000#32)
  :: StableHlo.unary main_c_16 main_v90 (broadcastInDim S200000 ![] bcast_S_S200000 : (⟨S_, .i32⟩ : BufTy).Contents (Elt F) → (⟨S200000, .i32⟩ : BufTy).Contents (Elt F))
  :: StableHlo.binary main_v87 main_v90 main_v91 (addi : (⟨S200000, .i32⟩ : BufTy).Contents (Elt F) → (⟨S200000, .i32⟩ : BufTy).Contents (Elt F) → (⟨S200000, .i32⟩ : BufTy).Contents (Elt F))
  :: StableHlo.ternary main_v89 main_v91 main_v87 main_v92 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
  :: StableHlo.unary main_v92 main_v93 (broadcastInDim S200000x1 ![0] bcast_S200000_S200000x1_0 : (⟨S200000, .i32⟩ : BufTy).Contents (Elt F) → (⟨S200000x1, .i32⟩ : BufTy).Contents (Elt F))
  :: StableHlo.binary main_v76 main_v93 main_v94 ((fun x i => Host.gather gather_S50000x512_S200000x1_S200000x512_1_0_n_n_0_1_1512 x i) : (⟨S50000x512, .bf16⟩ : BufTy).Contents (Elt F) → (⟨S200000x1, .i32⟩ : BufTy).Contents (Elt F) → (⟨S200000x512, .bf16⟩ : BufTy).Contents (Elt F))
  :: StableHlo.unary main_v74 main_v95 ((truncf .bf16 · bitsLt_bf16_f32) : (⟨S512x512, .f32⟩ : BufTy).Contents (Elt F) → (⟨S512x512, .bf16⟩ : BufTy).Contents (Elt F))
  :: StableHlo.unary main_v75 main_v96 ((truncf .bf16 · bitsLt_bf16_f32) : (⟨S512x512, .f32⟩ : BufTy).Contents (Elt F) → (⟨S512x512, .bf16⟩ : BufTy).Contents (Elt F))
  :: StableHlo.unary main_arg9 main_v97 ((truncf .bf16 · bitsLt_bf16_f32) : (⟨S512x1, .f32⟩ : BufTy).Contents (Elt F) → (⟨S512x1, .bf16⟩ : BufTy).Contents (Elt F))
  :: StableHlo.reshape main_arg8 main_v98 rfl shapeCasts_S512_S1x512
  :: StableHlo.reshape main_arg10 main_v99 rfl shapeCasts_S1_S1x1
  :: [] )

theorem hostOps2_split : (hostOps2 : List (HloOp τ sig (Elt F))) = layerOps2 ++ pairOps := rfl

end Split

/-- The fold over two lines in a row is the fold over the second from the fold over the first. -/
theorem after_two (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, after_cons, ih]

/-! ## The two outlined calls as stretches of their own -/

/-- The `where` of the normalisation coefficients: the selected array, over any contents at the stretch's start. -/
theorem where_result (V : Valuation τ sig (Elt Ideal)) :
    StableHlo.after hostOps0_1 V (Proc.devRef .tc main_v17)
      = (select (V (Proc.devRef .tc main_v13) : IVec S50000 1) (V (Proc.devRef .tc main_v16) : FVec Ideal S50000 .f32)
          (broadcastInDim S50000 ![] bcast_S_S50000 (V (Proc.devRef .tc main_cst_3) : FVec Ideal S_ .f32)) : FVec Ideal S50000 .f32) := by
  dsimp only [hostOps0_1]
  after_results
  rfl

/-- A buffer the `where` does not write keeps its contents. -/
theorem where_keep (V : Valuation τ sig (Elt Ideal)) (b : Ref sig .tc)
    (hb : b ≠ main_call0_v0 ∧ b ≠ main_call0_v1 ∧ b ≠ main_v17) :
    StableHlo.after hostOps0_1 V (Proc.devRef .tc b) = V (Proc.devRef .tc b) := by
  obtain ⟨h0, h1, h2⟩ := hb
  simp only [hostOps0_1, after_cons, after_nil, unary_result_ne' _ _ _ _ h0, unary_result_ne' _ _ _ _ h1,
    ternary_result_ne' _ _ _ _ _ _ h2]

/-- The `relu` between the two layers, over any contents at the stretch's start. -/
theorem relu_result (V : Valuation τ sig (Elt Ideal)) :
    StableHlo.after hostOps1_1 V (Proc.devRef .tc main_v53)
      = (maximumf (V (Proc.devRef .tc main_v52) : FVec Ideal S50000x512 .f32)
          (broadcastInDim S50000x512 ![] bcast_S_S50000x512 (constant (F := Ideal) S_ .f32 0x00000000#32)) : FVec Ideal S50000x512 .f32) := by
  dsimp only [hostOps1_1]
  after_results
  rfl

/-- A buffer the `relu` does not write keeps its contents. -/
theorem relu_keep (V : Valuation τ sig (Elt Ideal)) (b : Ref sig .tc)
    (hb : b ≠ main_call1_cst ∧ b ≠ main_call1_v0 ∧ b ≠ main_v53) :
    StableHlo.after hostOps1_1 V (Proc.devRef .tc b) = V (Proc.devRef .tc b) := by
  obtain ⟨h0, h1, h2⟩ := hb
  simp only [hostOps1_1, after_cons, after_nil, nullary_result_ne' _ _ _ h0, unary_result_ne' _ _ _ _ h1,
    binary_result_ne' _ _ _ _ _ h2]

/-! ## The dimension records of the two programs are the same records -/

theorem rec_scatter_deg : (scatter_S50000_S450000x1_S450000_n_0_0_1 : ScatterDims S50000 S450000x1 S450000)
    = Cert.ReferenceIdeal.scatter_S50000_S450000x1_S450000_n_0_0_1 := rfl
theorem rec_gather_coef : (gather_S50000_S450000x1_S450000_n_0_n_n_0_1_1 : GatherDims S50000 S450000x1 S450000)
    = Cert.ReferenceIdeal.gather_S50000_S450000x1_S450000_n_0_n_n_0_1_1 := rfl
theorem rec_gather_rows : (gather_S50000x512_S450000x1_S450000x512_1_0_n_n_0_1_1512 : GatherDims S50000x512 S450000x1 S450000x512)
    = Cert.ReferenceIdeal.gather_S50000x512_S450000x1_S450000x512_1_0_n_n_0_1_1512 := rfl
theorem rec_scatter_rows : (scatter_S50000x512_S450000x1_S450000x512_1_0_0_1 : ScatterDims S50000x512 S450000x1 S450000x512)
    = Cert.ReferenceIdeal.scatter_S50000x512_S450000x1_S450000x512_1_0_0_1 := rfl
theorem rec_gather_pairs : (gather_S50000x512_S200000x1_S200000x512_1_0_n_n_0_1_1512 : GatherDims S50000x512 S200000x1 S200000x512)
    = Cert.ReferenceIdeal.gather_S50000x512_S200000x1_S200000x512_1_0_n_n_0_1_1512 := rfl

/-- Walk a stretch of host operations back to the boundary it starts from: every host operation's result at its own
    buffer is its function of its operands' contents, every other buffer keeps its contents. What is left are the
    contents at the boundary (the launch memory, or a region's exit). -/
macro "walk" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W1, W2, W3, W5, W6, W7, W9, W11, hostOps0, hostOps0_2, hostOps1, hostOps1_2, hostOps2, hostOps3, layerOps2, pairOps,
      ↓Cert.Bridge.where_result, ↓Cert.Bridge.where_keep, ↓Cert.Bridge.relu_result, ↓Cert.Bridge.relu_keep]))

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-- On the extended reals a change of float format of a whole array is the array itself. -/
theorem truncf_ideal {s : Shape} {φ ψ : FTy} (x : FVec Ideal s φ) (h : ψ.bits < φ.bits) :
    truncf (F := Ideal) ψ x h = (x : FVec Ideal s ψ) := rfl
theorem extf_ideal {s : Shape} {φ ψ : FTy} (x : FVec Ideal s φ) (h : φ.bits < ψ.bits) :
    extf (F := Ideal) ψ x h = (x : FVec Ideal s ψ) := rfl

/-! ## The stretches of host operations, over any contents at their start -/

section Stretches

variable (V : Valuation τ sig (Elt Ideal))

/-- The launch stretch: the mask "the node has an edge", over the edge array. -/
theorem deg_mask : StableHlo.after hostOps0 V (Proc.devRef .tc main_v13) = val_main_v13 (F := Ideal) (V (Proc.devRef .tc main_arg1)) := by
  walk
  simp only [truncf_ideal, extf_ideal, rec_scatter_deg, rec_gather_coef, rec_gather_rows, rec_scatter_rows, rec_gather_pairs]
  unfold val_main_v13 val_main_v11 val_main_v9 val_main_cst_0 val_main_v10 val_main_v7 val_main_v5 val_main_v4 val_main_v6 val_main_v8 val_main_cst val_main_v12 val_main_cst_1
  rfl

/-- The launch stretch: the reciprocal square root of the degree (at least one). -/
theorem deg_rsqrt : StableHlo.after hostOps0 V (Proc.devRef .tc main_v16) = val_main_v16 (F := Ideal) (V (Proc.devRef .tc main_arg1)) := by
  walk
  simp only [truncf_ideal, extf_ideal, rec_scatter_deg, rec_gather_coef, rec_gather_rows, rec_scatter_rows, rec_gather_pairs]
  unfold val_main_v16 val_main_v15 val_main_v11 val_main_v9 val_main_cst_0 val_main_v10 val_main_v7 val_main_v5 val_main_v4 val_main_v6 val_main_v8 val_main_cst val_main_v14 val_main_cst_2
  rfl

theorem zero_cell : StableHlo.after hostOps0 V (Proc.devRef .tc main_cst_3) = (constant (F := Ideal) S_ .f32 0x00000000#32 : FVec Ideal S_ .f32) := by
  walk
  all_goals rfl

/-- The stretch before the first region: the edge coefficients from the per-node coefficient and the edge lists. -/
theorem norm_stretch : StableHlo.after hostOps0_2 V (Proc.devRef .tc main_v32)
    = Cert.ReferenceIdeal.Stages.normOf (F := Ideal) (V (Proc.devRef .tc main_v17)) (V (Proc.devRef .tc main_v3)) (V (Proc.devRef .tc main_v7)) := by
  walk
  simp only [truncf_ideal, extf_ideal, rec_scatter_deg, rec_gather_coef, rec_gather_rows, rec_scatter_rows, rec_gather_pairs]
  unfold Cert.ReferenceIdeal.Stages.normOf
  rfl

/-- The stretch after the first region: one layer from the region's product. -/
theorem layer_stretch1 : StableHlo.after hostOps1 V (Proc.devRef .tc main_v52)
    = Cert.ReferenceIdeal.Stages.layerOf (F := Ideal) (V (Proc.devRef .tc main_v34)) (V (Proc.devRef .tc main_v3)) (V (Proc.devRef .tc main_v7))
        (V (Proc.devRef .tc main_v32)) (V (Proc.devRef .tc main_arg4)) := by
  walk
  simp only [truncf_ideal, extf_ideal, rec_scatter_deg, rec_gather_coef, rec_gather_rows, rec_scatter_rows, rec_gather_pairs]
  unfold Cert.ReferenceIdeal.Stages.layerOf
  rfl

theorem weight2_stretch : StableHlo.after hostOps1_2 V (Proc.devRef .tc main_v54) = V (Proc.devRef .tc main_arg5) := by
  walk
  all_goals rfl

theorem relu_through : StableHlo.after hostOps1_2 V (Proc.devRef .tc main_v53) = V (Proc.devRef .tc main_v53) := by
  walk

/-- The second layer from the second region's product. -/
theorem layer_stretch2 : StableHlo.after layerOps2 V (Proc.devRef .tc main_v73)
    = Cert.ReferenceIdeal.Stages.layerOf (F := Ideal) (V (Proc.devRef .tc main_v55)) (V (Proc.devRef .tc main_v3)) (V (Proc.devRef .tc main_v7))
        (V (Proc.devRef .tc main_v32)) (V (Proc.devRef .tc main_arg6)) := by
  walk
  simp only [truncf_ideal, extf_ideal, rec_scatter_deg, rec_gather_coef, rec_gather_rows, rec_scatter_rows, rec_gather_pairs]
  unfold Cert.ReferenceIdeal.Stages.layerOf
  rfl

theorem pairs_through : StableHlo.after layerOps2 V (Proc.devRef .tc main_arg2) = V (Proc.devRef .tc main_arg2) := by
  walk

/-- The layer's rows at the pairs' first nodes. -/
theorem rows_stretch0 : StableHlo.after pairOps V (Proc.devRef .tc main_v85)
    = Cert.ReferenceIdeal.Stages.pairRows0 (F := Ideal) (V (Proc.devRef .tc main_v73)) (V (Proc.devRef .tc main_arg2)) := by
  walk
  simp only [truncf_ideal, extf_ideal, rec_scatter_deg, rec_gather_coef, rec_gather_rows, rec_scatter_rows, rec_gather_pairs]
  unfold Cert.ReferenceIdeal.Stages.pairRows0
  rfl

/-- The layer's rows at the pairs' second nodes. -/
theorem rows_stretch1 : StableHlo.after pairOps V (Proc.devRef .tc main_v94)
    = Cert.ReferenceIdeal.Stages.pairRows1 (F := Ideal) (V (Proc.devRef .tc main_v73)) (V (Proc.devRef .tc main_arg2)) := by
  walk
  simp only [truncf_ideal, extf_ideal, rec_scatter_deg, rec_gather_coef, rec_gather_rows, rec_scatter_rows, rec_gather_pairs]
  unfold Cert.ReferenceIdeal.Stages.pairRows1
  rfl

/-- The stretch after the second region: the second layer, then its rows at the pairs' first nodes. -/
theorem pair_stretch0 : StableHlo.after hostOps2 V (Proc.devRef .tc main_v85)
    = Cert.ReferenceIdeal.Stages.pairRows0 (F := Ideal) (Cert.ReferenceIdeal.Stages.layerOf (F := Ideal) (V (Proc.devRef .tc main_v55)) (V (Proc.devRef .tc main_v3)) (V (Proc.devRef .tc main_v7))
        (V (Proc.devRef .tc main_v32)) (V (Proc.devRef .tc main_arg6))) (V (Proc.devRef .tc main_arg2)) := by
  rw [hostOps2_split, after_two, rows_stretch0, layer_stretch2, pairs_through]

/-- The same at the pairs' second nodes. -/
theorem pair_stretch1 : StableHlo.after hostOps2 V (Proc.devRef .tc main_v94)
    = Cert.ReferenceIdeal.Stages.pairRows1 (F := Ideal) (Cert.ReferenceIdeal.Stages.layerOf (F := Ideal) (V (Proc.devRef .tc main_v55)) (V (Proc.devRef .tc main_v3)) (V (Proc.devRef .tc main_v7))
        (V (Proc.devRef .tc main_v32)) (V (Proc.devRef .tc main_arg6))) (V (Proc.devRef .tc main_arg2)) := by
  rw [hostOps2_split, after_two, rows_stretch1, layer_stretch2, pairs_through]

end Stretches

/-! ## Buffers carried from the launch to the regions' boundaries -/

theorem W3_v3 : W3 m ρ c (Proc.devRef .tc main_v3) = val_main_v3 (F := Ideal) x1 := by
  walk
  all_goals rfl
theorem W4_v3 : W4 m ρ c (Proc.devRef .tc main_v3) = val_main_v3 (F := Ideal) x1 :=
  (W4_of_ne m ρ c main_v3 (by decide)).trans (W3_v3 m ρ c)
theorem W7_v3 : W7 m ρ c (Proc.devRef .tc main_v3) = val_main_v3 (F := Ideal) x1 := by
  walk
  exact W4_v3 m ρ c
theorem W8_v3 : W8 m ρ c (Proc.devRef .tc main_v3) = val_main_v3 (F := Ideal) x1 :=
  (W8_of_ne m ρ c main_v3 (by decide)).trans (W7_v3 m ρ c)

theorem W3_v7 : W3 m ρ c (Proc.devRef .tc main_v7) = val_main_v7 (F := Ideal) x1 := by
  walk
  all_goals rfl
theorem W4_v7 : W4 m ρ c (Proc.devRef .tc main_v7) = val_main_v7 (F := Ideal) x1 :=
  (W4_of_ne m ρ c main_v7 (by decide)).trans (W3_v7 m ρ c)
theorem W7_v7 : W7 m ρ c (Proc.devRef .tc main_v7) = val_main_v7 (F := Ideal) x1 := by
  walk
  exact W4_v7 m ρ c
theorem W8_v7 : W8 m ρ c (Proc.devRef .tc main_v7) = val_main_v7 (F := Ideal) x1 :=
  (W8_of_ne m ρ c main_v7 (by decide)).trans (W7_v7 m ρ c)

theorem W3_arg2 : W3 m ρ c (Proc.devRef .tc main_arg2) = x2 := by
  walk
  all_goals rfl
theorem W4_arg2 : W4 m ρ c (Proc.devRef .tc main_arg2) = x2 :=
  (W4_of_ne m ρ c main_arg2 (by decide)).trans (W3_arg2 m ρ c)
theorem W7_arg2 : W7 m ρ c (Proc.devRef .tc main_arg2) = x2 := by
  walk
  exact W4_arg2 m ρ c
theorem W8_arg2 : W8 m ρ c (Proc.devRef .tc main_arg2) = x2 :=
  (W8_of_ne m ρ c main_arg2 (by decide)).trans (W7_arg2 m ρ c)

theorem W3_arg6 : W3 m ρ c (Proc.devRef .tc main_arg6) = x6 := by
  walk
  all_goals rfl
theorem W4_arg6 : W4 m ρ c (Proc.devRef .tc main_arg6) = x6 :=
  (W4_of_ne m ρ c main_arg6 (by decide)).trans (W3_arg6 m ρ c)
theorem W7_arg6 : W7 m ρ c (Proc.devRef .tc main_arg6) = x6 := by
  walk
  exact W4_arg6 m ρ c
theorem W8_arg6 : W8 m ρ c (Proc.devRef .tc main_arg6) = x6 :=
  (W8_of_ne m ρ c main_arg6 (by decide)).trans (W7_arg6 m ρ c)

theorem W3_arg7 : W3 m ρ c (Proc.devRef .tc main_arg7) = x7 := by
  walk
  all_goals rfl
theorem W4_arg7 : W4 m ρ c (Proc.devRef .tc main_arg7) = x7 :=
  (W4_of_ne m ρ c main_arg7 (by decide)).trans (W3_arg7 m ρ c)
theorem W7_arg7 : W7 m ρ c (Proc.devRef .tc main_arg7) = x7 := by
  walk
  exact W4_arg7 m ρ c
theorem W8_arg7 : W8 m ρ c (Proc.devRef .tc main_arg7) = x7 :=
  (W8_of_ne m ρ c main_arg7 (by decide)).trans (W7_arg7 m ρ c)

theorem W3_arg8 : W3 m ρ c (Proc.devRef .tc main_arg8) = x8 := by
  walk
  all_goals rfl
theorem W4_arg8 : W4 m ρ c (Proc.devRef .tc main_arg8) = x8 :=
  (W4_of_ne m ρ c main_arg8 (by decide)).trans (W3_arg8 m ρ c)
theorem W7_arg8 : W7 m ρ c (Proc.devRef .tc main_arg8) = x8 := by
  walk
  exact W4_arg8 m ρ c
theorem W8_arg8 : W8 m ρ c (Proc.devRef .tc main_arg8) = x8 :=
  (W8_of_ne m ρ c main_arg8 (by decide)).trans (W7_arg8 m ρ c)

theorem W3_arg9 : W3 m ρ c (Proc.devRef .tc main_arg9) = x9 := by
  walk
  all_goals rfl
theorem W4_arg9 : W4 m ρ c (Proc.devRef .tc main_arg9) = x9 :=
  (W4_of_ne m ρ c main_arg9 (by decide)).trans (W3_arg9 m ρ c)
theorem W7_arg9 : W7 m ρ c (Proc.devRef .tc main_arg9) = x9 := by
  walk
  exact W4_arg9 m ρ c
theorem W8_arg9 : W8 m ρ c (Proc.devRef .tc main_arg9) = x9 :=
  (W8_of_ne m ρ c main_arg9 (by decide)).trans (W7_arg9 m ρ c)

theorem W3_arg10 : W3 m ρ c (Proc.devRef .tc main_arg10) = x10 := by
  walk
  all_goals rfl
theorem W4_arg10 : W4 m ρ c (Proc.devRef .tc main_arg10) = x10 :=
  (W4_of_ne m ρ c main_arg10 (by decide)).trans (W3_arg10 m ρ c)
theorem W7_arg10 : W7 m ρ c (Proc.devRef .tc main_arg10) = x10 := by
  walk
  exact W4_arg10 m ρ c
theorem W8_arg10 : W8 m ρ c (Proc.devRef .tc main_arg10) = x10 :=
  (W8_of_ne m ρ c main_arg10 (by decide)).trans (W7_arg10 m ρ c)

theorem W3_arg4 : W3 m ρ c (Proc.devRef .tc main_arg4) = x4 := by
  walk
  all_goals rfl
theorem W4_arg4 : W4 m ρ c (Proc.devRef .tc main_arg4) = x4 :=
  (W4_of_ne m ρ c main_arg4 (by decide)).trans (W3_arg4 m ρ c)

theorem W3_arg5 : W3 m ρ c (Proc.devRef .tc main_arg5) = x5 := by
  walk
  all_goals rfl
theorem W4_arg5 : W4 m ρ c (Proc.devRef .tc main_arg5) = x5 :=
  (W4_of_ne m ρ c main_arg5 (by decide)).trans (W3_arg5 m ρ c)

theorem W3_arg0 : W3 m ρ c (Proc.devRef .tc main_arg0) = x0 := by
  walk
  all_goals rfl

theorem W3_v33 : W3 m ρ c (Proc.devRef .tc main_v33) = x3 := by
  walk
  all_goals rfl

/-! ## The boundaries of @main -/

theorem W1_v13 : W1 m ρ c (Proc.devRef .tc main_v13) = val_main_v13 (F := Ideal) x1 := deg_mask (W0 m ρ c)
theorem W1_v16 : W1 m ρ c (Proc.devRef .tc main_v16) = val_main_v16 (F := Ideal) x1 := deg_rsqrt (W0 m ρ c)
theorem W1_cst3 : W1 m ρ c (Proc.devRef .tc main_cst_3) = (constant (F := Ideal) S_ .f32 0x00000000#32 : FVec Ideal S_ .f32) :=
  zero_cell (W0 m ρ c)

theorem W2_v3 : W2 m ρ c (Proc.devRef .tc main_v3) = val_main_v3 (F := Ideal) x1 := by
  walk
  all_goals rfl
theorem W2_v7 : W2 m ρ c (Proc.devRef .tc main_v7) = val_main_v7 (F := Ideal) x1 := by
  walk
  all_goals rfl

/-- The per-node coefficient. -/
theorem W2_v17 : W2 m ρ c (Proc.devRef .tc main_v17) = val_main_v17 (F := Ideal) x1 := by
  show StableHlo.after hostOps0_1 (W1 m ρ c) (Proc.devRef .tc main_v17) = _
  rw [where_result, W1_v13, W1_v16, W1_cst3]
  exact (Cert.ReferenceIdeal.Stages.coef_eq (F := Ideal) x1).symm

/-- The edge coefficients. -/
theorem W3_v32 : W3 m ρ c (Proc.devRef .tc main_v32) = val_main_v32 (F := Ideal) x1 := by
  show StableHlo.after hostOps0_2 (W2 m ρ c) (Proc.devRef .tc main_v32) = _
  rw [norm_stretch, W2_v17, W2_v3, W2_v7]
  exact (Cert.ReferenceIdeal.Stages.norm_eq (F := Ideal) x1).symm
theorem W4_v32 : W4 m ρ c (Proc.devRef .tc main_v32) = val_main_v32 (F := Ideal) x1 :=
  (W4_of_ne m ρ c main_v32 (by decide)).trans (W3_v32 m ρ c)
theorem W7_v32 : W7 m ρ c (Proc.devRef .tc main_v32) = val_main_v32 (F := Ideal) x1 := by
  walk
  exact W4_v32 m ρ c
theorem W8_v32 : W8 m ρ c (Proc.devRef .tc main_v32) = val_main_v32 (F := Ideal) x1 :=
  (W8_of_ne m ρ c main_v32 (by decide)).trans (W7_v32 m ρ c)

/-! ## The regions' results and the stretches between them -/

section Regions

variable (h0 : ∀ (V : (c : Dev nD) → (b : Ref sig .tc) → Buf (Elt Ideal) ((c : Thread nD τ).loc b)) (c : Dev nD),
    (dat0 (F := Ideal) V c).arrAt 2 cfg0.N = Cert.Spec.mm (V c (Pipeline.arrRef spec0 0)) (V c (Pipeline.arrRef spec0 1)))
  (h1 : ∀ (V : (c : Dev nD) → (b : Ref sig .tc) → Buf (Elt Ideal) ((c : Thread nD τ).loc b)) (c : Dev nD),
    (dat1 (F := Ideal) V c).arrAt 2 cfg1.N = Cert.Spec.mm (V c (Pipeline.arrRef spec1 0)) (V c (Pipeline.arrRef spec1 1)))
  (hd : ∀ (z : FVec Ideal Cert.ReferenceIdeal.S50000x512 .f32) (w : FVec Ideal Cert.ReferenceIdeal.S512x512 .f32),
    Host.dotGeneral Cert.ReferenceIdeal.dot_S50000x512_S512x512_S50000x512_1_0_0_1_n_n none z w = Cert.Spec.mm z w)

include h0 hd in
/-- The first region leaves x · W1 (the weight's format change is the identity). -/
theorem W4_v34 : W4 m ρ c (Proc.devRef .tc main_v34) = val_main_v33 (F := Ideal) x0 x3 := by
  refine (W4_arr m ρ c 2).trans ((h0 (V3 m ρ) c).trans ?_)
  show Cert.Spec.mm (W3 m ρ c (Proc.devRef .tc main_arg0)) (W3 m ρ c (Proc.devRef .tc main_v33)) = _
  rw [W3_arg0, W3_v33]
  exact (hd _ _).symm

include h0 hd in
/-- The first layer after its relu: the plain program's stage over the same product, edge lists and coefficients. -/
theorem W7_v53 : W7 m ρ c (Proc.devRef .tc main_v53) = val_main_v50 (F := Ideal) x0 x1 x3 x4 := by
  show StableHlo.after hostOps1_2 (StableHlo.after hostOps1_1 (StableHlo.after hostOps1 (W4 m ρ c))) (Proc.devRef .tc main_v53) = _
  rw [relu_through, relu_result, layer_stretch1, W4_v34 m ρ c h0 hd, W4_v3, W4_v7, W4_v32, W4_arg4,
    Cert.ReferenceIdeal.Stages.relu_eq (F := Ideal) x0 x1 x3 x4, Cert.ReferenceIdeal.Stages.layer1_eq (F := Ideal) x0 x1 x3 x4]
  first | done | rfl

theorem W7_v54 : W7 m ρ c (Proc.devRef .tc main_v54) = x5 := by
  walk
  rw [W4_arg5]
  rfl

include h0 h1 hd in
/-- The second region leaves z₁ · W2. -/
theorem W8_v55 : W8 m ρ c (Proc.devRef .tc main_v55) = val_main_v51 (F := Ideal) x0 x1 x3 x4 x5 := by
  refine (W8_arr m ρ c 2).trans ((h1 (V7 m ρ) c).trans ?_)
  show Cert.Spec.mm (W7 m ρ c (Proc.devRef .tc main_v53)) (W7 m ρ c (Proc.devRef .tc main_v54)) = _
  rw [W7_v53 m ρ c h0 hd, W7_v54]
  exact (hd _ _).symm

include h0 h1 hd in
/-- The rows of the second layer gathered at the pairs' first nodes. -/
theorem W9_v85 : W9 m ρ c (Proc.devRef .tc main_v85) = val_main_v76 (F := Ideal) x0 x1 x2 x3 x4 x5 x6 := by
  show StableHlo.after hostOps2 (W8 m ρ c) (Proc.devRef .tc main_v85) = _
  rw [pair_stretch0, W8_v55 m ρ c h0 h1 hd, W8_v3, W8_v7, W8_v32, W8_arg6, W8_arg2,
    Cert.ReferenceIdeal.Stages.pair0_eq (F := Ideal) x0 x1 x2 x3 x4 x5 x6, Cert.ReferenceIdeal.Stages.layer2_eq (F := Ideal) x0 x1 x3 x4 x5 x6]
  first | done | rfl

include h0 h1 hd in
/-- The rows of the second layer gathered at the pairs' second nodes. -/
theorem W9_v94 : W9 m ρ c (Proc.devRef .tc main_v94) = val_main_v85 (F := Ideal) x0 x1 x2 x3 x4 x5 x6 := by
  show StableHlo.after hostOps2 (W8 m ρ c) (Proc.devRef .tc main_v94) = _
  rw [pair_stretch1, W8_v55 m ρ c h0 h1 hd, W8_v3, W8_v7, W8_v32, W8_arg6, W8_arg2,
    Cert.ReferenceIdeal.Stages.pair1_eq (F := Ideal) x0 x1 x2 x3 x4 x5 x6, Cert.ReferenceIdeal.Stages.layer2_eq (F := Ideal) x0 x1 x3 x4 x5 x6]
  first | done | rfl

end Regions

/-! ## The link predictor's other operands, and the result laid flat -/

theorem W9_v95 : W9 m ρ c (Proc.devRef .tc main_v95)
    = (truncf (F := Ideal) .bf16 (extractStridedSlice S512x512 ![0, 0] (x7 : FVec Ideal S1024x512 .f32) slices_S1024x512_S512x512_0_0) bitsLt_bf16_f32 : FVec Ideal S512x512 .bf16) := by
  walk
  rw [W8_arg7]

theorem W9_v96 : W9 m ρ c (Proc.devRef .tc main_v96)
    = (truncf (F := Ideal) .bf16 (extractStridedSlice S512x512 ![512, 0] (x7 : FVec Ideal S1024x512 .f32) slices_S1024x512_S512x512_512_0) bitsLt_bf16_f32 : FVec Ideal S512x512 .bf16) := by
  walk
  rw [W8_arg7]

theorem W9_v97 : W9 m ρ c (Proc.devRef .tc main_v97) = (truncf (F := Ideal) .bf16 (x9 : FVec Ideal S512x1 .f32) bitsLt_bf16_f32 : FVec Ideal S512x1 .bf16) := by
  walk
  rw [W8_arg9]

theorem W9_v98 : W9 m ρ c (Proc.devRef .tc main_v98) = (shapeCast S1x512 (x8 : FVec Ideal S512 .f32) shapeCasts_S512_S1x512 : FVec Ideal S1x512 .f32) := by
  walk
  rw [W8_arg8]
  rfl

theorem W9_v99 : W9 m ρ c (Proc.devRef .tc main_v99) = (shapeCast S1x1 (x10 : FVec Ideal S1 .f32) shapeCasts_S1_S1x1 : FVec Ideal S1x1 .f32) := by
  walk
  rw [W8_arg10]
  rfl

theorem W11_v101 : W11 m ρ c (Proc.devRef .tc main_v101)
    = shapeCast S200000 (W10 m ρ c (Proc.devRef .tc main_v100)) shapeCasts_S200000x1_S200000 := by
  walk
  all_goals rfl

end Cert.Bridge

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.MatmulRegions.lean ====
/-
  The two feature-transform regions as whole-array functions.

  Each region multiplies a [50000, 512] array of node features, taken 2000 rows at a time, by one [512, 512] weight
  matrix held whole at every grid point, and writes the 2000 × 512 product rows back where the feature rows came from.
  Point t of the 25 therefore writes rows 2000·t … 2000·t + 1999 of the matrix product of the two arrays as the region
  finds them, the 25 row blocks tile the result array, and the array ends holding the product: entry (p, q) is the
  sum over k < 512 of x (p, k) · w (k, q). Rounding the features to the narrower float format before the product is the
  identity on extended reals, and so is a reshape to the same shape.

  In order: the dimension record of the block product read at an index; the block a point stores, entry by entry;
  the index maps over the grid; each window's block as rows of its array; what a point writes back as a block of the
  product; the rows each block covers; the array after the region.
-/
import proofs.«174413_j66571993088847_2_alg».proof.Proof.Gen.KernelIdeal.Frame
import proofs.«174413_j66571993088847_2_alg».proof.Proof.Spec
import proofs.«174413_j66571993088847_2_alg».proof.Proof.LibPlainDot
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets : (![0, 0] : Fin 2 → Nat) = fun _ => 0 := funext fun a => by fin_cases a <;> rfl

/-! ## The block product's dimension record at an index -/

theorem lhs_row (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_col (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_row (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_col (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The block product accumulated into the zero splat, at (p, q): the sum over k < 512 of lhs (p, k) · rhs (k, q). -/
theorem block_product (lhs : FVec Ideal S2000x512 .bf16) (rhs : FVec Ideal S512x512 .bf16) (p : Fin 2000) (q : Fin 512) :
    matmul dot_S2000x512_S512x512_S2000x512_1_0_0_1_n_n none lhs rhs (constant S2000x512 .f32 0x00000000#32) (ix2 p q)
      = ∑ k : Fin 512, lhs (ix2 p k) * rhs (ix2 k q) :=
  (Ideal.matmul_constant_zero_apply dot_S2000x512_S512x512_S2000x512_1_0_0_1_n_n none lhs rhs (ix2 p q)).trans
    (Cert.Lib.PlainDot.sum_contr dot_S2000x512_S512x512_S2000x512_1_0_0_1_n_n rfl rfl lhs_row lhs_col rhs_row rhs_col lhs rhs p q)

/-! # Region 0 -/

/-- The block region 0 stores, at (p, q), from the blocks it loaded. -/
theorem out0_apply (x0 : Vec Ideal S2000x512 .f32) (x1 : Vec Ideal S512x512 .bf16) (p : Fin 2000) (q : Fin 512) :
    Gen.out0_2 (F := Ideal) x0 x1 (ix2 p q) = ∑ k : Fin 512, x0 (ix2 p k) * x1 (ix2 k q) := by
  unfold Gen.out0_2
  rw [View.canon_unit_zero zero_offsets]
  simp only [View.ld_unit_zero (S := S2000x512) zero_offsets, View.ld_unit_zero (S := S512x512) zero_offsets]
  unfold Gen.k0_pay1
  rw [shapeCast_self]
  exact block_product (truncf .bf16 x0 bitsLt_bf16_f32) x1 p q

variable (V : (c : Dev nD) → (b : Ref sig .tc) → Buf (Elt Ideal) ((c : Thread nD τ).loc b))

/-- The index maps over the 25 points: the feature and result windows sit at row block t, column block 0; the weight
    window at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 2000·t … 2000·t + 1999 of the feature array. -/
theorem feature_rows0 (c : Dev nD) (t : Fin cfg0.N) (y : S2000x512.Idx) (i : S50000x512.Idx)
    (h0 : (i 0).val = 2000 * t.val + (y 0).val) (h1 : (i 1).val = (y 1).val) :
    (Gen.iblk0 V c 0 t : Vec Ideal S2000x512 .f32) y = (V c (Pipeline.arrRef spec0 0) : S50000x512.Idx → EReal) i := by
  obtain ⟨e0, e1, -⟩ := idx_facts0 t
  unfold Gen.iblk0
  rw [View.read_apply]
  refine congrArg (V c (Pipeline.arrRef spec0 0) : S50000x512.Idx → EReal) ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The weight window's block at every point is the whole weight array. -/
theorem weight_whole0 (c : Dev nD) (t : Fin cfg0.N) (y : S512x512.Idx) :
    (Gen.iblk0 V c 1 t : Vec Ideal S512x512 .bf16) y = (V c (Pipeline.arrRef spec0 1) : S512x512.Idx → EReal) y := by
  obtain ⟨-, -, e0, e1, -⟩ := idx_facts0 t
  unfold Gen.iblk0
  rw [View.read_apply]
  refine congrArg (V c (Pipeline.arrRef spec0 1) : S512x512.Idx → EReal) ?_
  funext a
  apply Fin.ext
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

/-- What point t stores at (p, q) is the product at row 2000·t + p, column q. -/
theorem stored0_at (c : Dev nD) (t : Fin cfg0.N) (p : Fin 2000) (q : Fin 512) (r : Fin 50000) (hr : r.val = 2000 * t.val + p.val) :
    Gen.out0_2 (F := Ideal) (Gen.iblk0 V c 0 t) (Gen.iblk0 V c 1 t) (ix2 p q)
      = Cert.Spec.mm (V c (Pipeline.arrRef spec0 0)) (V c (Pipeline.arrRef spec0 1)) (ix2 r q) := by
  rw [out0_apply, Cert.Spec.mm_apply]
  refine Finset.sum_congr rfl fun k _ => ?_
  rw [feature_rows0 V c t (ix2 p k) (ix2 r k) hr rfl, weight_whole0 V c t (ix2 k q)]

/-- What point t writes back is block t of the product of the two arrays as the region finds them. -/
theorem flushed0_eq (c : Dev nD) (t : Fin cfg0.N) :
    (Gen.dat0 (F := Ideal) V c).flushed 2 t
      = ((cfg0.win 2).blk t).view.read (Elt Ideal) (Cert.Spec.mm (V c (Pipeline.arrRef spec0 0)) (V c (Pipeline.arrRef spec0 1))) := by
  show (cfg0.win 2).cut (grid0.coords t) ((Gen.dat0 V c).after 2 t) = _
  rw [Gen.after0_2]
  obtain ⟨-, -, -, -, e0, e1⟩ := idx_facts0 t
  have ht : t.val < 25 := by have h : t.val < grid0.N := t.isLt; rw [Gen.N_0] at h; exact h
  funext j
  have hj0 : (j 0).val < 2000 := (j 0).isLt
  have hj1 : (j 1).val < 512 := (j 1).isLt
  rw [View.read_apply]
  have hx : (cfg0.win 2).xinj (grid0.coords t) j = (ix2 (⟨(j 0).val, hj0⟩ : Fin 2000) (⟨(j 1).val, hj1⟩ : Fin 512) : S2000x512.Idx) :=
    funext fun a => by match a with | ⟨0, _⟩ => rfl | ⟨1, _⟩ => rfl
  have hy : ((cfg0.win 2).blk t).view.emb j
      = (ix2 (⟨2000 * t.val + (j 0).val, by omega⟩ : Fin 50000) (⟨(j 1).val, hj1⟩ : Fin 512) : S50000x512.Idx) :=
    funext fun a => Fin.ext (by
      match a with
      | ⟨0, _⟩ => show win0_2.index t (0 : Fin 2) * 2000 + 1 * (j 0).val = 2000 * t.val + (j 0).val; rw [e0]; omega
      | ⟨1, _⟩ => show win0_2.index t (1 : Fin 2) * 512 + 1 * (j 1).val = (j 1).val; rw [e1]; omega)
  exact (congrArg (Gen.out0_2 (F := Ideal) (Gen.iblk0 V c 0 t) (Gen.iblk0 V c 1 t)) hx).trans
    ((stored0_at V c t _ _ _ rfl).trans
      (congrArg (Cert.Spec.mm (V c (Pipeline.arrRef spec0 0)) (V c (Pipeline.arrRef spec0 1))) hy).symm)

/-- An index of the result array is in point t's block iff each coordinate is in the block's range on its axis. -/
theorem mem_rows0 (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v34).slice (win0_2.rect t)).set ↔ _
  rw [View.set_slice_whole, Rect.mem_set_unit]
  exact Iff.rfl

/-- Row r of the result array is in the block of point r / 2000. -/
theorem covered0 (i : S50000x512.Idx) : ∃ t : Fin cfg0.N, (cfg0.win 2).flush t = true ∧ i ∈ ((cfg0.win 2).blk t).view.set := by
  have hi0 : (i 0).val < 50000 := (i 0).isLt
  have hi1 : (i 1).val < 512 := (i 1).isLt
  obtain ⟨t, ht⟩ : ∃ t : Fin cfg0.N, t.val = (i 0).val / 2000 :=
    ⟨⟨(i 0).val / 2000, by show (i 0).val / 2000 < grid0.N; rw [Gen.N_0]; omega⟩, rfl⟩
  obtain ⟨-, -, -, -, e0, e1⟩ := idx_facts0 t
  refine ⟨t, Gen.flush0_2 t, ?_⟩
  rw [mem_rows0]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 512 ≤ (i 1).val ∧ (i 1).val < win0_2.index t (1 : Fin 2) * 512 + 512; rw [e1]; omega

/-- The result array after region 0: the product of the feature array and the weight array as the region finds them. -/
theorem region0_array (c : Dev nD) :
    (Gen.dat0 (F := Ideal) V c).arrAt 2 cfg0.N = Cert.Spec.mm (V c (Pipeline.arrRef spec0 0)) (V c (Pipeline.arrRef spec0 1)) :=
  (Gen.dat0 (F := Ideal) V c).arrAt_eq_of_cover 2 (Cert.Spec.mm (V c (Pipeline.arrRef spec0 0)) (V c (Pipeline.arrRef spec0 1)))
    (fun t _ => flushed0_eq V c t) covered0

/-! # Region 1 -/

/-- The block region 1 stores, at (p, q), from the blocks it loaded: region 0's, the feature block passing through one
    more reshape to its own shape. -/
theorem out1_apply (x0 : Vec Ideal S2000x512 .f32) (x1 : Vec Ideal S512x512 .bf16) (p : Fin 2000) (q : Fin 512) :
    Gen.out1_2 (F := Ideal) x0 x1 (ix2 p q) = ∑ k : Fin 512, x0 (ix2 p k) * x1 (ix2 k q) := by
  unfold Gen.out1_2
  rw [View.canon_unit_zero zero_offsets]
  simp only [View.ld_unit_zero (S := S2000x512) zero_offsets, View.ld_unit_zero (S := S512x512) zero_offsets]
  unfold Gen.k1_pay1
  rw [shapeCast_self, shapeCast_self]
  exact block_product (truncf .bf16 x0 bitsLt_bf16_f32) x1 p q

/-- The index maps over the 25 points: the feature and result windows sit at row block t, column block 0; the weight
    window at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature window's block at point t is rows 2000·t … 2000·t + 1999 of the feature array. -/
theorem feature_rows1 (c : Dev nD) (t : Fin cfg1.N) (y : S2000x512.Idx) (i : S50000x512.Idx)
    (h0 : (i 0).val = 2000 * t.val + (y 0).val) (h1 : (i 1).val = (y 1).val) :
    (Gen.iblk1 V c 0 t : Vec Ideal S2000x512 .f32) y = (V c (Pipeline.arrRef spec1 0) : S50000x512.Idx → EReal) i := by
  obtain ⟨e0, e1, -⟩ := idx_facts1 t
  unfold Gen.iblk1
  rw [View.read_apply]
  refine congrArg (V c (Pipeline.arrRef spec1 0) : S50000x512.Idx → EReal) ?_
  funext a
  apply Fin.ext
  match a with
  | ⟨0, _⟩ => show win1_0.index t (0 : Fin 2) * 2000 + 1 * (y 0).val = (i 0).val; rw [e0, h0]; omega
  | ⟨1, _⟩ => show win1_0.index t (1 : Fin 2) * 512 + 1 * (y 1).val = (i 1).val; rw [e1, h1]; omega

/-- The weight window's block at every point is the whole weight array. -/
theorem weight_whole1 (c : Dev nD) (t : Fin cfg1.N) (y : S512x512.Idx) :
    (Gen.iblk1 V c 1 t : Vec Ideal S512x512 .bf16) y = (V c (Pipeline.arrRef spec1 1) : S512x512.Idx → EReal) y := by
  obtain ⟨-, -, e0, e1, -⟩ := idx_facts1 t
  unfold Gen.iblk1
  rw [View.read_apply]
  refine congrArg (V c (Pipeline.arrRef spec1 1) : S512x512.Idx → EReal) ?_
  funext a
  apply Fin.ext
  match a with
  | ⟨0, _⟩ => show win1_1.index t (0 : Fin 2) * 512 + 1 * (y 0).val = (y 0).val; rw [e0]; omega
  | ⟨1, _⟩ => show win1_1.index t (1 : Fin 2) * 512 + 1 * (y 1).val = (y 1).val; rw [e1]; omega

/-- What point t stores at (p, q) is the product at row 2000·t + p, column q. -/
theorem stored1_at (c : Dev nD) (t : Fin cfg1.N) (p : Fin 2000) (q : Fin 512) (r : Fin 50000) (hr : r.val = 2000 * t.val + p.val) :
    Gen.out1_2 (F := Ideal) (Gen.iblk1 V c 0 t) (Gen.iblk1 V c 1 t) (ix2 p q)
      = Cert.Spec.mm (V c (Pipeline.arrRef spec1 0)) (V c (Pipeline.arrRef spec1 1)) (ix2 r q) := by
  rw [out1_apply, Cert.Spec.mm_apply]
  refine Finset.sum_congr rfl fun k _ => ?_
  rw [feature_rows1 V c t (ix2 p k) (ix2 r k) hr rfl, weight_whole1 V c t (ix2 k q)]

/-- What point t writes back is block t of the product of the two arrays as the region finds them. -/
theorem flushed1_eq (c : Dev nD) (t : Fin cfg1.N) :
    (Gen.dat1 (F := Ideal) V c).flushed 2 t
      = ((cfg1.win 2).blk t).view.read (Elt Ideal) (Cert.Spec.mm (V c (Pipeline.arrRef spec1 0)) (V c (Pipeline.arrRef spec1 1))) := by
  show (cfg1.win 2).cut (grid1.coords t) ((Gen.dat1 V c).after 2 t) = _
  rw [Gen.after1_2]
  obtain ⟨-, -, -, -, e0, e1⟩ := idx_facts1 t
  have ht : t.val < 25 := by have h : t.val < grid1.N := t.isLt; rw [Gen.N_1] at h; exact h
  funext j
  have hj0 : (j 0).val < 2000 := (j 0).isLt
  have hj1 : (j 1).val < 512 := (j 1).isLt
  rw [View.read_apply]
  have hx : (cfg1.win 2).xinj (grid1.coords t) j = (ix2 (⟨(j 0).val, hj0⟩ : Fin 2000) (⟨(j 1).val, hj1⟩ : Fin 512) : S2000x512.Idx) :=
    funext fun a => by match a with | ⟨0, _⟩ => rfl | ⟨1, _⟩ => rfl
  have hy : ((cfg1.win 2).blk t).view.emb j
      = (ix2 (⟨2000 * t.val + (j 0).val, by omega⟩ : Fin 50000) (⟨(j 1).val, hj1⟩ : Fin 512) : S50000x512.Idx) :=
    funext fun a => Fin.ext (by
      match a with
      | ⟨0, _⟩ => show win1_2.index t (0 : Fin 2) * 2000 + 1 * (j 0).val = 2000 * t.val + (j 0).val; rw [e0]; omega
      | ⟨1, _⟩ => show win1_2.index t (1 : Fin 2) * 512 + 1 * (j 1).val = (j 1).val; rw [e1]; omega)
  exact (congrArg (Gen.out1_2 (F := Ideal) (Gen.iblk1 V c 0 t) (Gen.iblk1 V c 1 t)) hx).trans
    ((stored1_at V c t _ _ _ rfl).trans
      (congrArg (Cert.Spec.mm (V c (Pipeline.arrRef spec1 0)) (V c (Pipeline.arrRef spec1 1))) hy).symm)

/-- An index of the result array is in point t's block iff each coordinate is in the block's range on its axis. -/
theorem mem_rows1 (t : Fin cfg1.N) (i : S50000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v55).slice (win1_2.rect t)).set ↔ _
  rw [View.set_slice_whole, Rect.mem_set_unit]
  exact Iff.rfl

/-- Row r of the result array is in the block of point r / 2000. -/
theorem covered1 (i : S50000x512.Idx) : ∃ t : Fin cfg1.N, (cfg1.win 2).flush t = true ∧ i ∈ ((cfg1.win 2).blk t).view.set := by
  have hi0 : (i 0).val < 50000 := (i 0).isLt
  have hi1 : (i 1).val < 512 := (i 1).isLt
  obtain ⟨t, ht⟩ : ∃ t : Fin cfg1.N, t.val = (i 0).val / 2000 :=
    ⟨⟨(i 0).val / 2000, by show (i 0).val / 2000 < grid1.N; rw [Gen.N_1]; omega⟩, rfl⟩
  obtain ⟨-, -, -, -, e0, e1⟩ := idx_facts1 t
  refine ⟨t, Gen.flush1_2 t, ?_⟩
  rw [mem_rows1]
  intro a
  match a with
  | ⟨0, _⟩ => show win1_2.index t (0 : Fin 2) * 2000 ≤ (i 0).val ∧ (i 0).val < win1_2.index t (0 : Fin 2) * 2000 + 2000; rw [e0, ht]; omega
  | ⟨1, _⟩ => show win1_2.index t (1 : Fin 2) * 512 ≤ (i 1).val ∧ (i 1).val < win1_2.index t (1 : Fin 2) * 512 + 512; rw [e1]; omega

/-- The result array after region 1: the product of the feature array and the weight array as the region finds them. -/
theorem region1_array (c : Dev nD) :
    (Gen.dat1 (F := Ideal) V c).arrAt 2 cfg1.N = Cert.Spec.mm (V c (Pipeline.arrRef spec1 0)) (V c (Pipeline.arrRef spec1 1)) :=
  (Gen.dat1 (F := Ideal) V c).arrAt_eq_of_cover 2 (Cert.Spec.mm (V c (Pipeline.arrRef spec1 0)) (V c (Pipeline.arrRef spec1 1)))
    (fun t _ => flushed1_eq V c t) covered1

end Cert.KernelIdeal.RegionValue

end
-- ==== Proof.LinkBlock.lean ====
/-
  One block of the link predictor, read at an entry, over the extended reals.

  The block computation takes 2000 rows of the two gathered feature matrices (hl, hr : [2000, 512]), the two halves A and B
  of the first layer's weight ([512, 512] each), the first bias as a row [1, 512], the second weight as a column [512, 1]
  and the second bias as a cell [1, 1], and returns a column [2000, 1]. Over the extended reals a change of number format
  is the identity, the zero word is 0, and a matrix product accumulated into zeros is the plain sum of products, so entry
  (p, 0) of the result is

      logistic (Σ_k max (Σ_j hl (p, j) · A (j, k) + Σ_j hr (p, j) · B (j, k) + b₁ (0, k)) 0 · w₂ (k, 0) + b₂ (0, 0)).

  Every step but five is entry by entry. The five: the three matrix products, each a contraction over one axis of extent
  512 (the left operand's axis 1 against the right operand's axis 0) read through the four coordinate facts of its
  dimension record, and the two broadcasts of a one-row operand over 2000 rows.
-/
import proofs.«174413_j66571993088847_2_alg».proof.Proof.Gen.KernelIdeal.Skeleton
import proofs.«174413_j66571993088847_2_alg».proof.Proof.LibPlainDot
import Idealize.ShloMosaic.Lib.ValueLayout
import Idealize.ShloMosaic.Lib.Pipeline.Value

noncomputable section

namespace Cert.KernelIdeal.LinkValue

open Idealize.ShloMosaic Idealize.ShloMosaic.ValueIdx Cert.KernelIdeal

/-! ## The two contractions' operand coordinates

At the result index i and the contraction index q, the left operand is read at (i 0, q) and the right operand at
(q, i 1): for the square product [2000, 512] · [512, 512] and for the product with a column [2000, 512] · [512, 1]. -/

theorem lhsSq_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide),
    dif_pos (show (0 : Fin S2000x512.rank) ∈ dot_S2000x512_S512x512_S2000x512_1_0_0_1_n_n.lhsNonContracting by decide)]
  rfl
theorem lhsSq_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhsSq_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhsSq_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide),
    dif_pos (show (1 : Fin S512x512.rank) ∈ dot_S2000x512_S512x512_S2000x512_1_0_0_1_n_n.rhsNonContracting by decide)]
  rfl

theorem lhsCol_0 (i : S2000x1.Idx) (q : dot_S2000x512_S512x1_S2000x1_1_0_0_1_n_n.contr.Idx) :
    (dot_S2000x512_S512x1_S2000x1_1_0_0_1_n_n.lhsIdx i q 0).val = (i 0).val := by
  unfold DotDims.lhsIdx
  rw [dif_neg (show ¬(0 : Fin S2000x512.rank) ∈ dot_S2000x512_S512x1_S2000x1_1_0_0_1_n_n.lhsBatch by decide),
    dif_pos (show (0 : Fin S2000x512.rank) ∈ dot_S2000x512_S512x1_S2000x1_1_0_0_1_n_n.lhsNonContracting by decide)]
  rfl
theorem lhsCol_1 (i : S2000x1.Idx) (q : dot_S2000x512_S512x1_S2000x1_1_0_0_1_n_n.contr.Idx) :
    (dot_S2000x512_S512x1_S2000x1_1_0_0_1_n_n.lhsIdx i q 1).val = (q ⟨0, by decide⟩).val :=
  dot_S2000x512_S512x1_S2000x1_1_0_0_1_n_n.lhsIdx_val_of_single rfl i q
theorem rhsCol_0 (i : S2000x1.Idx) (q : dot_S2000x512_S512x1_S2000x1_1_0_0_1_n_n.contr.Idx) :
    (dot_S2000x512_S512x1_S2000x1_1_0_0_1_n_n.rhsIdx i q 0).val = (q ⟨0, by decide⟩).val :=
  dot_S2000x512_S512x1_S2000x1_1_0_0_1_n_n.rhsIdx_val_of_single rfl i q
theorem rhsCol_1 (i : S2000x1.Idx) (q : dot_S2000x512_S512x1_S2000x1_1_0_0_1_n_n.contr.Idx) :
    (dot_S2000x512_S512x1_S2000x1_1_0_0_1_n_n.rhsIdx i q 1).val = (i 1).val := by
  unfold DotDims.rhsIdx
  rw [dif_neg (show ¬(1 : Fin S512x1.rank) ∈ dot_S2000x512_S512x1_S2000x1_1_0_0_1_n_n.rhsBatch by decide),
    dif_pos (show (1 : Fin S512x1.rank) ∈ dot_S2000x512_S512x1_S2000x1_1_0_0_1_n_n.rhsNonContracting by decide)]
  rfl

/-! ## The products at an entry -/

/-- The product [2000, 512] · [512, 512] accumulated into zeros, at (p, k): the sum over j of l (p, j) · r (j, k). -/
theorem prodSq_apply (l : FVec Ideal S2000x512 .bf16) (r : FVec Ideal S512x512 .bf16) (p : Fin 2000) (k : Fin 512) :
    matmul dot_S2000x512_S512x512_S2000x512_1_0_0_1_n_n none l r (constant (F := Ideal) S2000x512 .f32 0x00000000#32) (ix2 p k)
      = ∑ j : Fin 512, l (ix2 p j) * r (ix2 j k) :=
  (Ideal.matmul_constant_zero_apply dot_S2000x512_S512x512_S2000x512_1_0_0_1_n_n none l r (ix2 p k)).trans
    (Cert.Lib.PlainDot.sum_contr dot_S2000x512_S512x512_S2000x512_1_0_0_1_n_n rfl rfl lhsSq_0 lhsSq_1 rhsSq_0 rhsSq_1 l r p k)

/-- The product [2000, 512] · [512, 1] accumulated into zeros, at (p, u): the sum over k of l (p, k) · r (k, u). -/
theorem prodCol_apply (l : FVec Ideal S2000x512 .bf16) (r : FVec Ideal S512x1 .bf16) (p : Fin 2000) (u : Fin 1) :
    matmul dot_S2000x512_S512x1_S2000x1_1_0_0_1_n_n none l r (constant (F := Ideal) S2000x1 .f32 0x00000000#32) (ix2 p u)
      = ∑ k : Fin 512, l (ix2 p k) * r (ix2 k u) :=
  (Ideal.matmul_constant_zero_apply dot_S2000x512_S512x1_S2000x1_1_0_0_1_n_n none l r (ix2 p u)).trans
    (Cert.Lib.PlainDot.sum_contr dot_S2000x512_S512x1_S2000x1_1_0_0_1_n_n rfl rfl lhsCol_0 lhsCol_1 rhsCol_0 rhsCol_1 l r p u)

/-! ## The hidden layer and the score at an entry -/

/-- The hidden layer's block at (p, k): the two products added, the bias row added under its broadcast over the rows,
    and the maximum with the zero splat. -/
theorem hidden_apply (x0 x1 : FVec Ideal S2000x512 .bf16) (x2 x3 : FVec Ideal S512x512 .bf16) (x4 : FVec Ideal S1x512 .f32)
    (p : Fin 2000) (k : Fin 512) :
    maximumf
        (addf
          (addf (matmul dot_S2000x512_S512x512_S2000x512_1_0_0_1_n_n none x0 x2 (constant (F := Ideal) S2000x512 .f32 0x00000000#32))
            (matmul dot_S2000x512_S512x512_S2000x512_1_0_0_1_n_n none x1 x3 (constant (F := Ideal) S2000x512 .f32 0x00000000#32)))
          (broadcastTo S2000x512 x4 Gen.broadcasts_S1x512_S2000x512))
        (broadcast S2000x512 (FloatOps.ofBits (F := Ideal) .f32 0x00000000#32)) (ix2 p k)
      = max (((∑ j : Fin 512, x0 (ix2 p j) * x2 (ix2 j k)) + (∑ j : Fin 512, x1 (ix2 p j) * x3 (ix2 j k)))
          + x4 (ix2 (0 : Fin 1) k)) 0 := by
  show max ((matmul dot_S2000x512_S512x512_S2000x512_1_0_0_1_n_n none x0 x2 (constant (F := Ideal) S2000x512 .f32 0x00000000#32) (ix2 p k)
        + matmul dot_S2000x512_S512x512_S2000x512_1_0_0_1_n_n none x1 x3 (constant (F := Ideal) S2000x512 .f32 0x00000000#32) (ix2 p k))
      + broadcastTo S2000x512 x4 Gen.broadcasts_S1x512_S2000x512 (ix2 p k)) (Ideal.ofBits .f32 0x00000000#32) = _
  rw [prodSq_apply, prodSq_apply, broadcastTo_1b_ab_apply x4 Gen.broadcasts_S1x512_S2000x512 p k, Ideal.ofBits_zero_f32]

/-- THE BLOCK AT AN ENTRY: what the block computation stores at (p, 0), as a term of its seven operands. -/
theorem block_apply (x0 x1 : Vec Ideal S2000x512 .bf16) (x2 x3 : Vec Ideal S512x512 .bf16) (x4 : Vec Ideal S1x512 .f32)
    (x5 : Vec Ideal S512x1 .bf16) (x6 : Vec Ideal S1x1 .f32) (p : Fin 2000) :
    Gen.k2_pay1 (F := Ideal) x0 x1 x2 x3 x4 x5 x6 (ix2 p (0 : Fin 1))
      = Ideal.logistic ((∑ k : Fin 512,
            max (((∑ j : Fin 512, x0 (ix2 p j) * x2 (ix2 j k)) + (∑ j : Fin 512, x1 (ix2 p j) * x3 (ix2 j k)))
                + x4 (ix2 (0 : Fin 1) k)) 0
              * x5 (ix2 k (0 : Fin 1)))
          + x6 (ix2 (0 : Fin 1) (0 : Fin 1))) := by
  unfold Gen.k2_pay1
  simp only [shapeCast_self]
  show Ideal.logistic (matmul dot_S2000x512_S512x1_S2000x1_1_0_0_1_n_n none _ x5 (constant (F := Ideal) S2000x1 .f32 0x00000000#32) (ix2 p (0 : Fin 1))
      + broadcastTo S2000x1 x6 Gen.broadcasts_S1x1_S2000x1 (ix2 p (0 : Fin 1))) = _
  rw [prodCol_apply, broadcastTo_1b_ab_apply x6 Gen.broadcasts_S1x1_S2000x1 p (0 : Fin 1)]
  refine congrArg Ideal.logistic (congrArg (· + x6 (ix2 (0 : Fin 1) (0 : Fin 1))) (Finset.sum_congr rfl fun k _ => ?_))
  exact congrArg (· * x5 (ix2 k (0 : Fin 1))) (hidden_apply x0 x1 x2 x3 x4 p k)

end Cert.KernelIdeal.LinkValue

end
-- ==== Proof.LinkRegion.lean ====
/-
  The link predictor's region as one function of the arrays it finds.

  The region runs the block computation at 100 points. At point t it reads rows 2000 t … 2000 t + 1999 of the two gathered
  feature arrays hl, hr : [200000, 512] and, at every point alike, the whole of the five small operands (the two halves of
  the first weight, the first bias row, the second weight column, the second bias cell), and writes its [2000, 1] result to
  rows 2000 t … of the score column [200000, 1]. Row r of the column is therefore written by point r / 2000 alone, from row
  r of hl and hr, and holds the score of pair r: whatever the arrays held when the region was entered, the column ends as
  the whole-array function `Cert.Spec.mlpK` of them.

  The steps: what the block computation leaves at an entry (the one whole store over the block's term); the block index
  of every window at every point, decided once over the 100 points; each input block as rows, or as the whole, of its
  array; what point t writes back as block t of the whole-array function; every row covered by some point.
-/
import proofs.«174413_j66571993088847_2_alg».proof.Proof.Gen.KernelIdeal.Frame
import proofs.«174413_j66571993088847_2_alg».proof.Proof.LinkBlock
import proofs.«174413_j66571993088847_2_alg».proof.Proof.Spec
import Idealize.ShloMosaic.Lib.Pipeline.Value
import Idealize.ShloMosaic.Lib.Tactic

noncomputable section

namespace Cert.KernelIdeal.LinkValue

open Idealize.ShloMosaic Idealize.ShloMosaic.TcCoe Idealize.ShloMosaic.ValueIdx Idealize.SL.Sem
open Idealize.ShloMosaic.Pipeline (Dat)
open Cert.KernelIdeal Cert.KernelIdeal.Gen

/-- The offsets of every access of the block computation: zero on both axes. -/
theorem hz : (![0, 0] : Fin 2 → Nat) = fun _ => 0 := funext fun a => by fin_cases a <;> rfl

/-! ## What the block computation leaves -/

/-- The output block after the body, at (p, 0): its one store covers the block, and the stored term's loads read the
    operand blocks whole. -/
theorem stored_apply (x0 x1 : Vec Ideal S2000x512 .bf16) (x2 x3 : Vec Ideal S512x512 .bf16) (x4 : Vec Ideal S1x512 .f32)
    (x5 : Vec Ideal S512x1 .bf16) (x6 : Vec Ideal S1x1 .f32) (p : Fin 2000) :
    Gen.out2_7 (F := Ideal) x0 x1 x2 x3 x4 x5 x6 (ix2 p (0 : Fin 1))
      = Ideal.logistic ((∑ k : Fin 512,
            max (((∑ j : Fin 512, x0 (ix2 p j) * x2 (ix2 j k)) + (∑ j : Fin 512, x1 (ix2 p j) * x3 (ix2 j k)))
                + x4 (ix2 (0 : Fin 1) k)) 0
              * x5 (ix2 k (0 : Fin 1)))
          + x6 (ix2 (0 : Fin 1) (0 : Fin 1))) := by
  unfold Gen.out2_7
  rw [View.canon_unit_zero hz]
  simp only [View.ld_unit_zero (S := S2000x512) hz, View.ld_unit_zero (S := S512x512) hz, View.ld_unit_zero (S := S1x512) hz,
    View.ld_unit_zero (S := S512x1) hz, View.ld_unit_zero (S := S1x1) hz]
  exact block_apply x0 x1 x2 x3 x4 x5 x6 p

/-- The same entry as the whole-array function's: when the two row blocks x0, x1 are rows 2000 n … of hl, hr, entry y of
    the output block is entry i of `Cert.Spec.mlpK` for the row i 0 = 2000 n + y 0. -/
theorem stored_eq_mlpK (x0 x1 : Vec Ideal S2000x512 .bf16) (x2 x3 : Vec Ideal S512x512 .bf16) (x4 : Vec Ideal S1x512 .f32)
    (x5 : Vec Ideal S512x1 .bf16) (x6 : Vec Ideal S1x1 .f32) (hl hr : S200000x512.Idx → EReal) (n : Nat)
    (h0 : ∀ (x : S2000x512.Idx) (k : S200000x512.Idx), (k 0).val = 2000 * n + (x 0).val → (k 1).val = (x 1).val → x0 x = hl k)
    (h1 : ∀ (x : S2000x512.Idx) (k : S200000x512.Idx), (k 0).val = 2000 * n + (x 0).val → (k 1).val = (x 1).val → x1 x = hr k)
    (y : S2000x1.Idx) (i : S200000x1.Idx) (hi : (i 0).val = 2000 * n + (y 0).val) :
    Gen.out2_7 (F := Ideal) x0 x1 x2 x3 x4 x5 x6 y = Cert.Spec.mlpK hl hr x2 x3 x4 x5 x6 i := by
  obtain ⟨p, u, rfl⟩ : ∃ (p : Fin 2000) (u : Fin 1), y = ix2 p u := ⟨y 0, y 1, eq_ix2 y⟩
  obtain ⟨r, v, rfl⟩ : ∃ (r : Fin 200000) (v : Fin 1), i = ix2 r v := ⟨i 0, i 1, eq_ix2 i⟩
  obtain rfl : u = 0 := Subsingleton.elim _ _
  have hr' : r.val = 2000 * n + p.val := hi
  rw [stored_apply, Cert.Spec.mlpK_apply]
  unfold Cert.Spec.score Cert.Spec.hidden
  have e0 : ∀ j : Fin 512, x0 (ix2 p j) = hl (ix2 r j) := fun j => h0 _ _ hr' rfl
  have e1 : ∀ j : Fin 512, x1 (ix2 p j) = hr (ix2 r j) := fun j => h1 _ _ hr' rfl
  simp only [e0, e1]

/-! ## The block indices over the grid -/

/-- The two row windows and the output window sit at block (t, 0) at point t. -/
theorem idx_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_7.index t (0 : Fin 2) = t.val ∧ win2_7.index t (1 : Fin 2) = 0 :=
  (by decide +kernel : ∀ t : Fin grid2.N, _)

/-- The five small windows sit at block (0, 0) at every point. -/
theorem idx_whole : ∀ t : Fin cfg2.N, win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-! ## The input blocks as parts of their arrays

An element of a block sits in its array, on each axis, at the block index times the block's extent plus its own
coordinate. -/

section Blocks

variable (V : (c : Dev nD) → (b : Ref sig .tc) → Buf (Elt Ideal) ((c : Thread nD τ).loc b))

/-- Window 0's block at point t is rows 2000 t … 2000 t + 1999 of the left feature array, all 512 columns. -/
theorem rows0_apply (c : Dev nD) (t : Fin cfg2.N) (x : S2000x512.Idx) (k : S200000x512.Idx)
    (hk0 : (k 0).val = 2000 * t.val + (x 0).val) (hk1 : (k 1).val = (x 1).val) :
    (Gen.iblk2 V c 0 t : Vec Ideal S2000x512 .bf16) x = (V c main_v85 : S200000x512.Idx → EReal) k := by
  have e0 : win2_0.index t (0 : Fin 2) = t.val := (idx_rows t).1
  have e1 : win2_0.index t (1 : Fin 2) = 0 := (idx_rows t).2.1
  unfold Gen.iblk2
  show V c main_v85 (((cfg2.win 0).blk t).view.emb x) = V c main_v85 k
  refine congrArg (V c main_v85) (funext fun a => Fin.ext ?_)
  match a with
  | ⟨0, _⟩ => show win2_0.index t (0 : Fin 2) * 2000 + 1 * (x 0).val = (k 0).val; rw [e0, hk0]; omega
  | ⟨1, _⟩ => show win2_0.index t (1 : Fin 2) * 512 + 1 * (x 1).val = (k 1).val; rw [e1, hk1]; omega

/-- Window 1's block at point t is rows 2000 t … 2000 t + 1999 of the right feature array, all 512 columns. -/
theorem rows1_apply (c : Dev nD) (t : Fin cfg2.N) (x : S2000x512.Idx) (k : S200000x512.Idx)
    (hk0 : (k 0).val = 2000 * t.val + (x 0).val) (hk1 : (k 1).val = (x 1).val) :
    (Gen.iblk2 V c 1 t : Vec Ideal S2000x512 .bf16) x = (V c main_v94 : S200000x512.Idx → EReal) k := by
  have e0 : win2_1.index t (0 : Fin 2) = t.val := (idx_rows t).2.2.1
  have e1 : win2_1.index t (1 : Fin 2) = 0 := (idx_rows t).2.2.2.1
  unfold Gen.iblk2
  show V c main_v94 (((cfg2.win 1).blk t).view.emb x) = V c main_v94 k
  refine congrArg (V c main_v94) (funext fun a => Fin.ext ?_)
  match a with
  | ⟨0, _⟩ => show win2_1.index t (0 : Fin 2) * 2000 + 1 * (x 0).val = (k 0).val; rw [e0, hk0]; omega
  | ⟨1, _⟩ => show win2_1.index t (1 : Fin 2) * 512 + 1 * (x 1).val = (k 1).val; rw [e1, hk1]; omega

/-- Window 2's block is, at every point, the whole of the first half of the first weight. -/
theorem whole2_eq (c : Dev nD) (t : Fin cfg2.N) :
    (Gen.iblk2 V c 2 t : S512x512.Idx → EReal) = (V c main_v95 : S512x512.Idx → EReal) := by
  have e0 : win2_2.index t (0 : Fin 2) = 0 := (idx_whole t).1
  have e1 : win2_2.index t (1 : Fin 2) = 0 := (idx_whole t).2.1
  funext x
  unfold Gen.iblk2
  show V c main_v95 (((cfg2.win 2).blk t).view.emb x) = V c main_v95 x
  refine congrArg (V c main_v95) (funext fun a => Fin.ext ?_)
  match a with
  | ⟨0, _⟩ => show win2_2.index t (0 : Fin 2) * 512 + 1 * (x 0).val = (x 0).val; rw [e0]; omega
  | ⟨1, _⟩ => show win2_2.index t (1 : Fin 2) * 512 + 1 * (x 1).val = (x 1).val; rw [e1]; omega

/-- Window 3's block is, at every point, the whole of the second half of the first weight. -/
theorem whole3_eq (c : Dev nD) (t : Fin cfg2.N) :
    (Gen.iblk2 V c 3 t : S512x512.Idx → EReal) = (V c main_v96 : S512x512.Idx → EReal) := by
  have e0 : win2_3.index t (0 : Fin 2) = 0 := (idx_whole t).2.2.1
  have e1 : win2_3.index t (1 : Fin 2) = 0 := (idx_whole t).2.2.2.1
  funext x
  unfold Gen.iblk2
  show V c main_v96 (((cfg2.win 3).blk t).view.emb x) = V c main_v96 x
  refine congrArg (V c main_v96) (funext fun a => Fin.ext ?_)
  match a with
  | ⟨0, _⟩ => show win2_3.index t (0 : Fin 2) * 512 + 1 * (x 0).val = (x 0).val; rw [e0]; omega
  | ⟨1, _⟩ => show win2_3.index t (1 : Fin 2) * 512 + 1 * (x 1).val = (x 1).val; rw [e1]; omega

/-- Window 4's block is, at every point, the whole of the first bias row. -/
theorem whole4_eq (c : Dev nD) (t : Fin cfg2.N) :
    (Gen.iblk2 V c 4 t : S1x512.Idx → EReal) = (V c main_v98 : S1x512.Idx → EReal) := by
  have e0 : win2_4.index t (0 : Fin 2) = 0 := (idx_whole t).2.2.2.2.1
  have e1 : win2_4.index t (1 : Fin 2) = 0 := (idx_whole t).2.2.2.2.2.1
  funext x
  unfold Gen.iblk2
  show V c main_v98 (((cfg2.win 4).blk t).view.emb x) = V c main_v98 x
  refine congrArg (V c main_v98) (funext fun a => Fin.ext ?_)
  match a with
  | ⟨0, _⟩ => show win2_4.index t (0 : Fin 2) * 1 + 1 * (x 0).val = (x 0).val; rw [e0]; omega
  | ⟨1, _⟩ => show win2_4.index t (1 : Fin 2) * 512 + 1 * (x 1).val = (x 1).val; rw [e1]; omega

/-- Window 5's block is, at every point, the whole of the second weight column. -/
theorem whole5_eq (c : Dev nD) (t : Fin cfg2.N) :
    (Gen.iblk2 V c 5 t : S512x1.Idx → EReal) = (V c main_v97 : S512x1.Idx → EReal) := by
  have e0 : win2_5.index t (0 : Fin 2) = 0 := (idx_whole t).2.2.2.2.2.2.1
  have e1 : win2_5.index t (1 : Fin 2) = 0 := (idx_whole t).2.2.2.2.2.2.2.1
  funext x
  unfold Gen.iblk2
  show V c main_v97 (((cfg2.win 5).blk t).view.emb x) = V c main_v97 x
  refine congrArg (V c main_v97) (funext fun a => Fin.ext ?_)
  match a with
  | ⟨0, _⟩ => show win2_5.index t (0 : Fin 2) * 512 + 1 * (x 0).val = (x 0).val; rw [e0]; omega
  | ⟨1, _⟩ => show win2_5.index t (1 : Fin 2) * 1 + 1 * (x 1).val = (x 1).val; rw [e1]; omega

/-- Window 6's block is, at every point, the whole of the second bias cell. -/
theorem whole6_eq (c : Dev nD) (t : Fin cfg2.N) :
    (Gen.iblk2 V c 6 t : S1x1.Idx → EReal) = (V c main_v99 : S1x1.Idx → EReal) := by
  have e0 : win2_6.index t (0 : Fin 2) = 0 := (idx_whole t).2.2.2.2.2.2.2.2.1
  have e1 : win2_6.index t (1 : Fin 2) = 0 := (idx_whole t).2.2.2.2.2.2.2.2.2
  funext x
  unfold Gen.iblk2
  show V c main_v99 (((cfg2.win 6).blk t).view.emb x) = V c main_v99 x
  refine congrArg (V c main_v99) (funext fun a => Fin.ext ?_)
  match a with
  | ⟨0, _⟩ => show win2_6.index t (0 : Fin 2) * 1 + 1 * (x 0).val = (x 0).val; rw [e0]; omega
  | ⟨1, _⟩ => show win2_6.index t (1 : Fin 2) * 1 + 1 * (x 1).val = (x 1).val; rw [e1]; omega

/-! ## What a point writes back, and the whole column -/

/-- WHAT POINT t WRITES BACK is block t of the whole-array function of the arrays as the region finds them. -/
theorem flushed_eq (c : Dev nD) (t : Fin cfg2.N) :
    (Gen.dat2 (F := Ideal) V c).flushed 7 t
      = ((cfg2.win 7).blk t).view.read (Elt Ideal) (Cert.Spec.mlpK (V c main_v85) (V c main_v94) (V c main_v95) (V c main_v96) (V c main_v98) (V c main_v97) (V c main_v99)) := by
  show (cfg2.win 7).cut (grid2.coords t) ((Gen.dat2 (F := Ideal) V c).after 7 t) = _
  rw [Gen.after2_7]
  have e70 : win2_7.index t (0 : Fin 2) = t.val := (idx_rows t).2.2.2.2.1
  funext y
  show Gen.out2_7 (F := Ideal) (Gen.iblk2 V c 0 t) (Gen.iblk2 V c 1 t) (Gen.iblk2 V c 2 t) (Gen.iblk2 V c 3 t) (Gen.iblk2 V c 4 t)
      (Gen.iblk2 V c 5 t) (Gen.iblk2 V c 6 t) ((cfg2.win 7).xinj (grid2.coords t) y)
    = Cert.Spec.mlpK (V c main_v85) (V c main_v94) (V c main_v95) (V c main_v96) (V c main_v98) (V c main_v97) (V c main_v99)
        (((cfg2.win 7).blk t).view.emb y)
  rw [← whole2_eq V c t, ← whole3_eq V c t, ← whole4_eq V c t, ← whole5_eq V c t, ← whole6_eq V c t]
  refine stored_eq_mlpK (Gen.iblk2 V c 0 t) (Gen.iblk2 V c 1 t) (Gen.iblk2 V c 2 t) (Gen.iblk2 V c 3 t) (Gen.iblk2 V c 4 t)
    (Gen.iblk2 V c 5 t) (Gen.iblk2 V c 6 t) (V c main_v85) (V c main_v94) t.val
    (fun x k hk0 hk1 => rows0_apply V c t x k hk0 hk1) (fun x k hk0 hk1 => rows1_apply V c t x k hk0 hk1)
    ((cfg2.win 7).xinj (grid2.coords t) y) (((cfg2.win 7).blk t).view.emb y) ?_
  show win2_7.index t (0 : Fin 2) * 2000 + 1 * (y 0).val = 2000 * t.val + (y 0).val
  rw [e70]; omega

/-- A row of the score column is in point t's block iff it lies in the block's range on each axis. -/
theorem mem_blk (t : Fin cfg2.N) (i : S200000x1.Idx) :
    i ∈ ((cfg2.win 7).blk t).view.set ↔ ∀ a : Fin 2, win2_7.index t a * S2000x1.size a ≤ (i a).val
      ∧ (i a).val < win2_7.index t a * S2000x1.size a + S2000x1.size a := by
  show i ∈ ((View.whole main_v100).slice (win2_7.rect t)).set ↔ _
  rw [View.set_slice_whole, Rect.mem_set_unit]
  exact Iff.rfl

/-- THE REGION AS A WHOLE-ARRAY FUNCTION: after the region's 100 write-backs the score column is `Cert.Spec.mlpK` of the
    seven arrays as the region found them (row r is written by point r / 2000). -/
theorem region2_array (c : Dev nD) :
    (Gen.dat2 (F := Ideal) V c).arrAt 7 cfg2.N = (Cert.Spec.mlpK (V c main_v85) (V c main_v94) (V c main_v95) (V c main_v96) (V c main_v98) (V c main_v97) (V c main_v99)) :=
  (Gen.dat2 (F := Ideal) V c).arrAt_eq_of_cover 7 (Cert.Spec.mlpK (V c main_v85) (V c main_v94) (V c main_v95) (V c main_v96) (V c main_v98) (V c main_v97) (V c main_v99))
    (fun t _ => flushed_eq V c t) fun i => by
      have hi0 : (i 0).val < 200000 := (i 0).isLt
      have hi1 : (i 1).val < 1 := (i 1).isLt
      have hN : cfg2.N = 100 := Gen.N_2
      have ht : (i 0).val / 2000 < cfg2.N := by rw [hN]; omega
      refine ⟨⟨(i 0).val / 2000, ht⟩, Gen.flush2_7 _, ?_⟩
      have e0 : win2_7.index ⟨(i 0).val / 2000, ht⟩ (0 : Fin 2) = (i 0).val / 2000 := (idx_rows _).2.2.2.2.1
      have e1 : win2_7.index ⟨(i 0).val / 2000, ht⟩ (1 : Fin 2) = 0 := (idx_rows _).2.2.2.2.2
      rw [mem_blk]
      intro a
      match a with
      | ⟨0, _⟩ =>
        show win2_7.index ⟨(i 0).val / 2000, ht⟩ (0 : Fin 2) * 2000 ≤ (i 0).val
          ∧ (i 0).val < win2_7.index ⟨(i 0).val / 2000, ht⟩ (0 : Fin 2) * 2000 + 2000
        rw [e0]; omega
      | ⟨1, _⟩ =>
        show win2_7.index ⟨(i 0).val / 2000, ht⟩ (1 : Fin 2) * 1 ≤ (i 1).val
          ∧ (i 1).val < win2_7.index ⟨(i 0).val / 2000, ht⟩ (1 : Fin 2) * 1 + 1
        rw [e1]; omega

/-- The same, with the seven arrays named as the pipeline's windows 0 … 6 name them. -/
theorem region2_array_windows (c : Dev nD) :
    (Gen.dat2 (F := Ideal) V c).arrAt 7 cfg2.N
      = Cert.Spec.mlpK (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) :=
  region2_array V c

end Blocks

end Cert.KernelIdeal.LinkValue

end
-- ==== Proof.RefConcat.lean ====
/-
  The reference joins the two gathered row arrays hl, hr : [200000, 512] side by side into one [200000, 1024] array and
  contracts its 1024 columns against the first layer's weight x7 : [1024, 512]. Column c of the joined array is column c
  of hl when c < 512 and column c - 512 of hr otherwise, so the contraction over the 1024 columns is the contraction of
  hl against rows 0 … 511 of x7 plus the contraction of hr against rows 512 … 1023 of x7. The split of the sum is the
  splitting of a sum over Fin (512 + 512) into its two halves, which holds in every additive commutative monoid: no
  finiteness of the entries is used.
-/
import proofs.«174413_j66571993088847_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The joined array at a column below 512 is the left array at that column. -/
theorem joined_left {α : Type} (hl hr : S200000x512.Idx → α)
    (h : Shape.Concatenates [S200000x512, S200000x512] S200000x1024 1) (p : Fin 200000) (j : Fin 512) :
    concatenate S200000x1024 1 [⟨S200000x512, hl⟩, ⟨S200000x512, hr⟩] h
        (ix2 p (Fin.castAdd 512 j : Fin (512 + 512)))
      = hl (ix2 p j) :=
  concatenate_pair_apply_left 1 hl hr h
    (ix2 p (Fin.castAdd 512 j : Fin (512 + 512))) rfl (ix2 p j)
    (fun b => match b with
      | ⟨0, _⟩ => rfl
      | ⟨1, _⟩ => rfl)

/-- The joined array at column 512 + j is the right array at column j. -/
theorem joined_right {α : Type} (hl hr : S200000x512.Idx → α)
    (h : Shape.Concatenates [S200000x512, S200000x512] S200000x1024 1) (p : Fin 200000) (j : Fin 512) :
    concatenate S200000x1024 1 [⟨S200000x512, hl⟩, ⟨S200000x512, hr⟩] h
        (ix2 p (Fin.natAdd 512 j : Fin (512 + 512)))
      = hr (ix2 p j) :=
  concatenate_pair_apply_right 1 hl hr h
    (ix2 p (Fin.natAdd 512 j : Fin (512 + 512))) rfl rfl (ix2 p j)
    (fun b hb => match b, hb with
      | ⟨0, _⟩, _ => rfl
      | ⟨1, _⟩, hb => absurd rfl hb)
    (by show j.val + 512 = 512 + j.val; omega)

/-- A sum over the 1024 joined columns is the sum over the first 512 plus the sum over the last 512. -/
theorem sum_halves (f : Fin 1024 → EReal) :
    ∑ c : Fin 1024, f c = (∑ j : Fin 512, f (Fin.castAdd 512 j : Fin (512 + 512))) + ∑ j : Fin 512, f (Fin.natAdd 512 j : Fin (512 + 512)) :=
  Fin.sum_univ_add (a := 512) (b := 512) f

/-- The contraction of the joined array against x7 at (p, k), split into the two halves of x7's rows. -/
theorem joined_contract (hl hr : FVec Ideal S200000x512 .f32) (x7 : FVec Ideal S1024x512 .f32)
    (h : Shape.Concatenates [S200000x512, S200000x512] S200000x1024 1) (p : Fin 200000) (k : Fin 512) :
    ∑ c : Fin 1024,
        concatenate S200000x1024 1 [⟨S200000x512, hl⟩, ⟨S200000x512, hr⟩] h (ix2 p c)
          * x7 (ix2 c k)
      = (∑ j : Fin 512, hl (ix2 p j) * x7 (ix2 (Fin.castAdd 512 j : Fin (512 + 512)) k))
        + ∑ j : Fin 512, hr (ix2 p j) * x7 (ix2 (Fin.natAdd 512 j : Fin (512 + 512)) k) := by
  refine (sum_halves _).trans ?_
  refine congrArg₂ (· + ·) (Finset.sum_congr rfl fun j _ => ?_) (Finset.sum_congr rfl fun j _ => ?_)
  · exact congrArg (· * x7 (ix2 (Fin.castAdd 512 j : Fin (512 + 512)) k)) (joined_left hl hr h p j)
  · exact congrArg (· * x7 (ix2 (Fin.natAdd 512 j : Fin (512 + 512)) k)) (joined_right hl hr h p j)

/-- The word 0x3F800000 is the number one. -/
theorem ofBits_one_f32 : Ideal.ofBits .f32 0x3F800000#32 = 1 := by
  simp [Ideal.ofBits, Ideal.ieee]
  rw [← EReal.coe_mul]
  norm_num

end Cert.ReferenceIdeal.RefValue

end
-- ==== Proof.RefScores.lean ====
/-
  The plain program's results, as the specification's whole-array functions, at the extended reals.

  Node level. The host's dot_general of node features [50000, 512] with a weight [512, 512] contracts the left operand's
  axis 1 against the right operand's axis 0 with no batch axis, so its entry (p, q) is the sum over k < 512 of
  z (p, k) · w (k, q): the plain matrix product `Spec.mm`. Both node-level products of the program are of this form.

  Pair level. For a pair p, with hl (p, ·) and hr (p, ·) the two gathered node rows (kept as opaque arrays here), the
  program joins them into one row of 1024 columns and computes

      pre (p, k)  = Σ_{c < 1024} joined (p, c) · x7 (c, k) + x8 k
      h (p, k)    = max (pre (p, k)) 0
      logit p     = Σ_{k < 512} h (p, k) · x9 (k, 0) + x10 0
      result p    = 1 / (1 + exp (− logit p)).

  The contraction over the joined columns splits into the sum over the first 512 (hl against rows 0 … 511 of x7) plus the
  sum over the last 512 (hr against rows 512 … 1023 of x7); that is the hidden layer `Spec.hidden` with the two halves of
  x7 as its two weights. The last line is by definition the logistic function of the logit (the word 0x3F800000 denotes
  the number one), so the result is `Spec.score`, and the vector of all results is `Spec.mlpRef`. Only commutative-monoid
  facts about sums are used; nothing needs the entries to be finite.

  Each step below reads one operation of the program at an index written with explicit coordinates (p, k), identifies the
  operand indices the operation names there with the coordinates themselves, and passes to the next operation.
-/
import proofs.«174413_j66571993088847_2_alg».proof.Proof.RefRead
import proofs.«174413_j66571993088847_2_alg».proof.Proof.RefConcat
import proofs.«174413_j66571993088847_2_alg».proof.Proof.Spec
import proofs.«174413_j66571993088847_2_alg».proof.Proof.LibPlainDot

noncomputable section

namespace Cert.ReferenceIdeal.RefValue

open Cert.ReferenceIdeal Cert.ReferenceIdeal.Gen Cert.ReferenceIdeal.ReadP Idealize.ShloMosaic Idealize.ShloMosaic.ValueIdx

/-! ## The two node-level products -/

/-- The host's product of node features [50000, 512] with a [512, 512] weight is the plain matrix product. -/
theorem dot_nodes (z : FVec Ideal S50000x512 .f32) (w : FVec Ideal S512x512 .f32) :
    Host.dotGeneral dot_S50000x512_S512x512_S50000x512_1_0_0_1_n_n none z w = Cert.Spec.mm z w := by
  funext i
  obtain ⟨p, q, rfl⟩ : ∃ (p : Fin 50000) (q : Fin 512), i = ix2 p q := ⟨i 0, i 1, eq_ix2 i⟩
  rw [Cert.Spec.mm_apply]
  exact Cert.Lib.PlainDot.dotGeneral_apply dot_S50000x512_S512x512_S50000x512_1_0_0_1_n_n rfl rfl
    lhs_main_v33_0 lhs_main_v33_1 rhs_main_v33_0 rhs_main_v33_1 none z w p q

/-- The first layer's product x · W₁. -/
theorem val_main_v33_eq (x0 : (⟨S50000x512, .f32⟩ : BufTy).Contents (Elt Ideal)) (x3 : (⟨S512x512, .f32⟩ : BufTy).Contents (Elt Ideal)) :
    val_main_v33 (F := Ideal) x0 x3 = Cert.Spec.mm x0 x3 := by
  unfold val_main_v33
  exact dot_nodes x0 x3

/-- The second layer's product h₁ · W₂, over the first layer's output as an opaque array. -/
theorem val_main_v51_eq (x0 : (⟨S50000x512, .f32⟩ : BufTy).Contents (Elt Ideal)) (x1 : (⟨S2x400000, .i32⟩ : BufTy).Contents (Elt Ideal))
    (x3 : (⟨S512x512, .f32⟩ : BufTy).Contents (Elt Ideal)) (x4 : (⟨S512, .f32⟩ : BufTy).Contents (Elt Ideal))
    (x5 : (⟨S512x512, .f32⟩ : BufTy).Contents (Elt Ideal)) :
    val_main_v51 (F := Ideal) x0 x1 x3 x4 x5 = Cert.Spec.mm (val_main_v50 (F := Ideal) x0 x1 x3 x4) x5 := by
  unfold val_main_v51
  exact dot_nodes _ x5

/-! ## The link predictor's scores -/

section Scores

variable (x0 : (⟨S50000x512, .f32⟩ : BufTy).Contents (Elt Ideal)) (x1 : (⟨S2x400000, .i32⟩ : BufTy).Contents (Elt Ideal))
  (x2 : (⟨S2x200000, .i32⟩ : BufTy).Contents (Elt Ideal)) (x3 : (⟨S512x512, .f32⟩ : BufTy).Contents (Elt Ideal))
  (x4 : (⟨S512, .f32⟩ : BufTy).Contents (Elt Ideal)) (x5 : (⟨S512x512, .f32⟩ : BufTy).Contents (Elt Ideal))
  (x6 : (⟨S512, .f32⟩ : BufTy).Contents (Elt Ideal)) (x7 : (⟨S1024x512, .f32⟩ : BufTy).Contents (Elt Ideal))
  (x8 : (⟨S512, .f32⟩ : BufTy).Contents (Elt Ideal)) (x9 : (⟨S512x1, .f32⟩ : BufTy).Contents (Elt Ideal))
  (x10 : (⟨S1, .f32⟩ : BufTy).Contents (Elt Ideal))

/-- The first layer's contraction at pair p, unit k: the joined rows against x7, split into the two halves. -/
theorem first_contract (p : Fin 200000) (k : Fin 512) :
    val_main_v87 (F := Ideal) x0 x1 x2 x3 x4 x5 x6 x7 (ix2 p k)
      = (∑ j : Fin 512, val_main_v76 (F := Ideal) x0 x1 x2 x3 x4 x5 x6 (ix2 p j) * x7 (ix2 (Fin.castAdd 512 j : Fin (512 + 512)) k))
        + ∑ j : Fin 512, val_main_v85 (F := Ideal) x0 x1 x2 x3 x4 x5 x6 (ix2 p j) * x7 (ix2 (Fin.natAdd 512 j : Fin (512 + 512)) k) := by
  rw [val_main_v87_apply]
  unfold val_main_v86
  generalize val_main_v76 (F := Ideal) x0 x1 x2 x3 x4 x5 x6 = hl
  generalize val_main_v85 (F := Ideal) x0 x1 x2 x3 x4 x5 x6 = hr
  refine Eq.trans (Finset.sum_congr rfl fun c _ => ?_) (joined_contract hl hr x7 concatenates_S200000x512_S200000x512_S200000x1024_d1 p k)
  rw [show lidx_main_v87 (ix2 p k) c = ix2 p c from funext fun a => by match a with | ⟨0, _⟩ => rfl | ⟨1, _⟩ => rfl,
    show ridx_main_v87 (ix2 p k) c = ix2 c k from funext fun a => by match a with | ⟨0, _⟩ => rfl | ⟨1, _⟩ => rfl]

/-- The hidden layer at pair p, unit k. -/
theorem hidden_eq (p : Fin 200000) (k : Fin 512) :
    val_main_v91 (F := Ideal) x0 x1 x2 x3 x4 x5 x6 x7 x8 (ix2 p k)
      = Cert.Spec.hidden (val_main_v76 (F := Ideal) x0 x1 x2 x3 x4 x5 x6) (val_main_v85 (F := Ideal) x0 x1 x2 x3 x4 x5 x6)
          (fun j k => x7 (ix2 (Fin.castAdd 512 j : Fin (512 + 512)) k)) (fun j k => x7 (ix2 (Fin.natAdd 512 j : Fin (512 + 512)) k))
          (fun k => x8 (ix1 k)) p k := by
  rw [val_main_v91_apply, val_main_v90_apply, first_contract, val_main_v89_apply, val_main_v88_apply,
    val_main_call2_v0_apply, val_main_call2_cst_apply,
    show idx_main_v88 (idx_main_v89 (ix2 p k)) = ix1 k from funext fun a => by match a with | ⟨0, _⟩ => rfl,
    Ideal.maximumf_def, Ideal.addf_def, Ideal.ofBits_def, Ideal.ofBits_zero_f32]
  unfold Cert.Spec.hidden
  rfl

/-- The second layer's contraction and bias at pair p: the logit. -/
theorem logit_eq (p : Fin 200000) :
    val_main_v96 (F := Ideal) x0 x1 x2 x3 x4 x5 x6 x7 x8 x9 x10 (ix1 p)
      = (∑ k : Fin 512, Cert.Spec.hidden (val_main_v76 (F := Ideal) x0 x1 x2 x3 x4 x5 x6) (val_main_v85 (F := Ideal) x0 x1 x2 x3 x4 x5 x6)
          (fun j k => x7 (ix2 (Fin.castAdd 512 j : Fin (512 + 512)) k)) (fun j k => x7 (ix2 (Fin.natAdd 512 j : Fin (512 + 512)) k))
          (fun k => x8 (ix1 k)) p k * x9 (ix2 k (0 : Fin 1))) + x10 (ix1 (0 : Fin 1)) := by
  rw [val_main_v96_apply,
    show idx_main_v96 (ix1 p) = ix2 p (0 : Fin 1) from funext fun a => by
      match a with
      | ⟨0, _⟩ => exact Fin.ext (Nat.div_one _)
      | ⟨1, _⟩ => rfl,
    val_main_v95_apply, val_main_v92_apply, val_main_v94_apply, val_main_v93_apply,
    show idx_main_v93 (idx_main_v94 (ix2 p (0 : Fin 1))) = ix1 (0 : Fin 1) from funext fun a => by match a with | ⟨0, _⟩ => rfl,
    Ideal.addf_def]
  refine congrArg (· + x10 (ix1 (0 : Fin 1))) (Finset.sum_congr rfl fun k _ => ?_)
  rw [show lidx_main_v92 (ix2 p (0 : Fin 1)) k = ix2 p k from funext fun a => by match a with | ⟨0, _⟩ => rfl | ⟨1, _⟩ => rfl,
    show ridx_main_v92 (ix2 p (0 : Fin 1)) k = ix2 k (0 : Fin 1) from funext fun a => by match a with | ⟨0, _⟩ => rfl | ⟨1, _⟩ => rfl,
    hidden_eq]

/-- The plain program's scores are the specification's, over the two gathered row arrays as opaque arguments:
    1 / (1 + exp (−logit)) is the logistic function of the logit. -/
theorem scores_eq :
    val_main_v102 (F := Ideal) x0 x1 x2 x3 x4 x5 x6 x7 x8 x9 x10
      = Cert.Spec.mlpRef (val_main_v76 (F := Ideal) x0 x1 x2 x3 x4 x5 x6) (val_main_v85 (F := Ideal) x0 x1 x2 x3 x4 x5 x6) x7 x8 x9 x10 := by
  funext i
  obtain ⟨p, rfl⟩ : ∃ p : Fin 200000, i = ix1 p := ⟨i 0, eq_ix1 i⟩
  rw [Cert.Spec.mlpRef_apply, val_main_v102_apply, val_main_v101_apply, val_main_cst_18_apply, val_main_v100_apply,
    val_main_v99_apply, val_main_cst_17_apply, val_main_v98_apply, val_main_v97_apply, logit_eq,
    Ideal.hostDivf_def, Ideal.addf_def, Ideal.hostUnary_exp_def, Ideal.hostNegf_def, Ideal.negf_def, Ideal.ofBits_def,
    ofBits_one_f32]
  unfold Cert.Spec.score Ideal.logistic
  rfl

end Scores

end Cert.ReferenceIdeal.RefValue

end
-- ==== Proof.OperandReads.lean ====
/-
  The link predictor's operands as the blocked program prepares them, read at an index, at the extended reals.

  The first layer's weight x7 : [1024, 512] is cut into its rows 0 … 511 and its rows 512 … 1023, each a [512, 512]
  matrix: entry (j, k) of the first is x7 (j, k) and of the second x7 (512 + j, k). The change of float format applied
  to the two pieces and to the second layer's weight x9 : [512, 1] is the identity on extended reals. The biases
  x8 : [512] and x10 : [1] are re-laid as a [1, 512] row and a [1, 1] cell, and the [200000, 1] column of results as a
  vector of 200000: a re-laying keeps the row-major position, so (0, k) of the row is entry k, (0, 0) of the cell is
  entry 0, and entry p of the vector is (p, 0) of the column.

  Each lemma takes the operation's side condition (the slice or re-laying relation between the two shapes, the order of
  the two formats' widths) as a hypothesis, so it applies whichever proof of it the program's term carries.
-/
import proofs.«174413_j66571993088847_2_alg».proof.KernelIdeal
import Idealize.ShloMosaic.Lib.Pipeline.Value
import Idealize.ShloMosaic.Lib.ValueIdx
import Idealize.ShloMosaic.PureOps.Ideal.Laws

noncomputable section

namespace Cert.KernelIdeal.OperandReads

open Cert.KernelIdeal Idealize.ShloMosaic Idealize.ShloMosaic.ValueIdx

/-- Rows 0 … 511 of the first layer's weight, after the format change: entry (j, k) is x7 (j, k). -/
theorem weight_top (x7 : FVec Ideal S1024x512 .f32) (hs : S1024x512.Slices ![0, 0] S512x512)
    (hb : FTy.bits .bf16 < FTy.bits .f32) (j k : Fin 512) :
    (truncf .bf16 (extractStridedSlice S512x512 ![0, 0] x7 hs) hb : FVec Ideal S512x512 .bf16) (ix2 j k)
      = x7 (ix2 (Fin.castAdd 512 j : Fin (512 + 512)) k) :=
  (truncf_apply (extractStridedSlice S512x512 ![0, 0] x7 hs) hb (ix2 j k)).trans
    (extractStridedSlice_apply ![0, 0] x7 hs (ix2 j k) (ix2 (Fin.castAdd 512 j : Fin (512 + 512)) k)
      (fun a => match a with
        | ⟨0, _⟩ => by show j.val = 0 + j.val; omega
        | ⟨1, _⟩ => by show k.val = 0 + k.val; omega))

/-- Rows 512 … 1023 of the first layer's weight, after the format change: entry (j, k) is x7 (512 + j, k). -/
theorem weight_bottom (x7 : FVec Ideal S1024x512 .f32) (hs : S1024x512.Slices ![512, 0] S512x512)
    (hb : FTy.bits .bf16 < FTy.bits .f32) (j k : Fin 512) :
    (truncf .bf16 (extractStridedSlice S512x512 ![512, 0] x7 hs) hb : FVec Ideal S512x512 .bf16) (ix2 j k)
      = x7 (ix2 (Fin.natAdd 512 j : Fin (512 + 512)) k) :=
  (truncf_apply (extractStridedSlice S512x512 ![512, 0] x7 hs) hb (ix2 j k)).trans
    (extractStridedSlice_apply ![512, 0] x7 hs (ix2 j k) (ix2 (Fin.natAdd 512 j : Fin (512 + 512)) k)
      (fun a => match a with
        | ⟨0, _⟩ => by show 512 + j.val = 512 + j.val; rfl
        | ⟨1, _⟩ => by show k.val = 0 + k.val; omega))

/-- The second layer's weight after the format change is itself. -/
theorem weight_out (x9 : FVec Ideal S512x1 .f32) (hb : FTy.bits .bf16 < FTy.bits .f32) (k : Fin 512) :
    (truncf .bf16 x9 hb : FVec Ideal S512x1 .bf16) (ix2 k (0 : Fin 1)) = x9 (ix2 k (0 : Fin 1)) :=
  truncf_apply x9 hb (ix2 k (0 : Fin 1))

/-- The first bias as a [1, 512] row: (0, k) is entry k. -/
theorem bias_row (x8 : FVec Ideal S512 .f32) (h : S512.ShapeCasts S1x512) (k : Fin 512) :
    shapeCast S1x512 x8 h (ix2 (0 : Fin 1) k) = x8 (ix1 k) :=
  shapeCast_apply x8 h (ix2 (0 : Fin 1) k) (ix1 k)
    (by rewrite [Shape.rowMajor_val_one, Shape.rowMajor_val_two]; show k.val = 0 * 512 + k.val; omega)

/-- The second bias as a [1, 1] cell: (0, 0) is entry 0. -/
theorem bias_cell (x10 : FVec Ideal S1 .f32) (h : S1.ShapeCasts S1x1) :
    shapeCast S1x1 x10 h (ix2 (0 : Fin 1) (0 : Fin 1)) = x10 (ix1 (0 : Fin 1)) :=
  shapeCast_apply x10 h (ix2 (0 : Fin 1) (0 : Fin 1)) (ix1 (0 : Fin 1))
    (by rewrite [Shape.rowMajor_val_one, Shape.rowMajor_val_two]; show 0 = 0 * 1 + 0; omega)

/-- The [200000, 1] column of results as a vector: entry p is (p, 0) of the column. -/
theorem column_flat (y : FVec Ideal S200000x1 .f32) (h : S200000x1.ShapeCasts S200000) (p : Fin 200000) :
    shapeCast S200000 y h (ix1 p) = y (ix2 p (0 : Fin 1)) :=
  shapeCast_apply y h (ix1 p) (ix2 p (0 : Fin 1))
    (by rewrite [Shape.rowMajor_val_two, Shape.rowMajor_val_one]; show p.val * 1 + 0 = p.val; omega)

end Cert.KernelIdeal.OperandReads

end
-- ==== Proof.Final.lean ====
/-
  The blocked program's result is the plain program's last stage.

  At the last boundary of @main the result buffer is the third region's [200000, 1] column laid flat. The region's
  column is the link predictor's score over its operands at entry (the region's value), and those operands are, by the
  walk through the host operations, the plain program's two gathered pair-row arrays and the pieces the arguments are
  cut into: the two [512, 512] halves of the first weight, the first bias as a row, the second weight column, the second
  bias as a cell. The plain program's last stage is the same score over the arguments (its first layer contracts the
  joined rows against the whole [1024, 512] weight: the sum over 1024 columns is the sum of the two sums over 512), and
  the two scores agree piece by piece.
-/
import proofs.«174413_j66571993088847_2_alg».proof.Proof.HostSide
import proofs.«174413_j66571993088847_2_alg».proof.Proof.MatmulRegions
import proofs.«174413_j66571993088847_2_alg».proof.Proof.LinkRegion
import proofs.«174413_j66571993088847_2_alg».proof.Proof.RefScores
import proofs.«174413_j66571993088847_2_alg».proof.Proof.OperandReads

set_option maxRecDepth 16384

noncomputable section

namespace Cert.Bridge

open Cert.KernelIdeal Cert.KernelIdeal.Gen Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-- The third region's output array at the end of the region: the score column over the gathered pair rows and the
    pieces of the arguments. -/
theorem W10_v100 : W10 m ρ c (Proc.devRef .tc main_v100)
    = Cert.Spec.mlpK (val_main_v76 (F := Ideal) x0 x1 x2 x3 x4 x5 x6) (val_main_v85 (F := Ideal) x0 x1 x2 x3 x4 x5 x6)
        (truncf (F := Ideal) .bf16 (extractStridedSlice S512x512 ![0, 0] (x7 : FVec Ideal S1024x512 .f32) slices_S1024x512_S512x512_0_0) bitsLt_bf16_f32 : FVec Ideal S512x512 .bf16)
        (truncf (F := Ideal) .bf16 (extractStridedSlice S512x512 ![512, 0] (x7 : FVec Ideal S1024x512 .f32) slices_S1024x512_S512x512_512_0) bitsLt_bf16_f32 : FVec Ideal S512x512 .bf16)
        (shapeCast S1x512 (x8 : FVec Ideal S512 .f32) shapeCasts_S512_S1x512 : FVec Ideal S1x512 .f32)
        (truncf (F := Ideal) .bf16 (x9 : FVec Ideal S512x1 .f32) bitsLt_bf16_f32 : FVec Ideal S512x1 .bf16)
        (shapeCast S1x1 (x10 : FVec Ideal S1 .f32) shapeCasts_S1_S1x1 : FVec Ideal S1x1 .f32) := by
  refine (W10_arr m ρ c 7).trans ((Cert.KernelIdeal.LinkValue.region2_array_windows (V9 m ρ) c).trans ?_)
  show Cert.Spec.mlpK (W9 m ρ c (Proc.devRef .tc main_v85)) (W9 m ρ c (Proc.devRef .tc main_v94)) (W9 m ρ c (Proc.devRef .tc main_v95))
    (W9 m ρ c (Proc.devRef .tc main_v96)) (W9 m ρ c (Proc.devRef .tc main_v98)) (W9 m ρ c (Proc.devRef .tc main_v97))
    (W9 m ρ c (Proc.devRef .tc main_v99)) = _
  rw [W9_v85 m ρ c (Cert.KernelIdeal.RegionValue.region0_array) (Cert.KernelIdeal.RegionValue.region1_array) Cert.ReferenceIdeal.RefValue.dot_nodes,
    W9_v94 m ρ c (Cert.KernelIdeal.RegionValue.region0_array) (Cert.KernelIdeal.RegionValue.region1_array) Cert.ReferenceIdeal.RefValue.dot_nodes,
    W9_v95, W9_v96, W9_v98, W9_v97, W9_v99]

/-- The result buffer at the last boundary is the plain program's last stage of the arguments. -/
theorem result_eq : W11 m ρ c (Proc.devRef .tc main_v101) = val_main_v102 (F := Ideal) x0 x1 x2 x3 x4 x5 x6 x7 x8 x9 x10 := by
  rw [W11_v101, W10_v100, Cert.ReferenceIdeal.RefValue.scores_eq]
  funext i
  obtain ⟨p, rfl⟩ : ∃ p : Fin 200000, i = ix1 p := ⟨i 0, eq_ix1 i⟩
  rw [Cert.KernelIdeal.OperandReads.column_flat]
  exact Cert.Spec.mlp_eq _ _ x7 x8 x9 x10 _ _ _ _ _
    (Cert.KernelIdeal.OperandReads.weight_top _ _ _) (Cert.KernelIdeal.OperandReads.weight_bottom _ _ _)
    (Cert.KernelIdeal.OperandReads.bias_row _ _) (Cert.KernelIdeal.OperandReads.weight_out _ _)
    (Cert.KernelIdeal.OperandReads.bias_cell _ _) p

end Cert.Bridge

end
-- ==== Proof.lean ====
/-
  Two programs score 200000 candidate links of a graph on 50000 nodes, and this file proves that they agree.

  Both add a self-loop to every node's edge list, count each node's degree d, take the coefficient
  d(src)^(-1/2) · d(dst)^(-1/2) of every edge, and run two graph-convolution layers: the node features times a
  [512, 512] weight, each edge's source row of the product scaled by the edge's coefficient and added into the edge's
  destination row, a bias added, with max (·, 0) between the two layers. For every candidate pair they gather the two
  end nodes' rows of the second layer's output and feed them to a two-layer predictor whose score is the logistic
  function of the second layer's value.

  The plain program does all of this with whole-array operations. The blocked program is the same line of whole-array
  operations except that its three matrix products are computed block by block: the two node-level products x · W by
  row blocks of the features against the whole weight, and the predictor by row blocks of the pairs, which for a block
  of pairs computes the hidden layer, the output layer and the logistic function in one pass. The blocked program
  also changes float format on the way into those products and back; on extended reals every such change is the
  identity.

  Read over the extended reals, with every operation exact:
  * each blocked product's blocks are restrictions of one whole-array function of its operands and together cover the
    result, so each blocked node-level product is the plain matrix product, entry (p, q) = Σ_k x (p, k) · w (k, q),
    which is also what the plain program's contraction is;
  * everything between the products is the same operation applied to equal operands on both sides, and is carried
    along unopened;
  * the one rearrangement is in the predictor's first layer. The plain program joins the two gathered rows into one row
    of 1024 entries and contracts it against the [1024, 512] weight; the blocked program contracts the left row against
    the weight's rows 0 … 511, the right row against its rows 512 … 1023, and adds. A sum over 1024 indices is the sum
    over the first 512 plus the sum over the last 512, in any commutative monoid; so the two agree whatever the
    entries are, infinite ones included, and the precondition that the inputs are finite is never opened.

  Below: the three programs terminate without fault and leave their arguments unchanged (the blocked program, at words
  and at extended reals, by its staged runs region by region; the plain program by running its operations in order);
  nothing was rewritten between the word-level and the extended-real text of the blocked program, so that conjunct is
  trivial; and for the last conjunct both runs are brought to the SAME function of the eleven argument arrays, the
  plain program's result read operation by operation.
-/
import proofs.«174413_j66571993088847_2_alg».proof.Defs
import proofs.«174413_j66571993088847_2_alg».proof.Proof.Gen.Kernel
import proofs.«174413_j66571993088847_2_alg».proof.Proof.Gen.Kernel.Skeleton
import proofs.«174413_j66571993088847_2_alg».proof.Proof.Gen.Kernel.Launch
import proofs.«174413_j66571993088847_2_alg».proof.Proof.Gen.Kernel.Points
import proofs.«174413_j66571993088847_2_alg».proof.Proof.Gen.Kernel.Frame
import proofs.«174413_j66571993088847_2_alg».proof.Proof.Gen.KernelIdeal
import proofs.«174413_j66571993088847_2_alg».proof.Proof.Gen.KernelIdeal.Skeleton
import proofs.«174413_j66571993088847_2_alg».proof.Proof.Gen.KernelIdeal.Launch
import proofs.«174413_j66571993088847_2_alg».proof.Proof.Gen.KernelIdeal.Points
import proofs.«174413_j66571993088847_2_alg».proof.Proof.Gen.KernelIdeal.Frame
import proofs.«174413_j66571993088847_2_alg».proof.Proof.Gen.ReferenceIdeal
import proofs.«174413_j66571993088847_2_alg».proof.Proof.Gen.Pre_finite_inputs
import proofs.«174413_j66571993088847_2_alg».proof.Proof.RefRead
import proofs.«174413_j66571993088847_2_alg».proof.Proof.KernelRun
import proofs.«174413_j66571993088847_2_alg».proof.Proof.Final
import Idealize.ShloMosaic.Adequacy
import Idealize.ShloMosaic.Init

noncomputable section

namespace Cert.Proof

open Idealize.ShloMosaic Idealize.SL.Sem

/-- The word-level blocked program runs and leaves its arguments as launched. -/
theorem frame_kernel : Cert.frame_Kernel := fun m ρ _ => Cert.Kernel.Gen.frame m ρ

/-- So does the blocked program over the extended reals. -/
theorem frame_kernelIdeal : Cert.frame_KernelIdeal := fun m ρ _ => Cert.KernelIdeal.Gen.frame m ρ

/-- The plain program's run names its result as well; forgetting the result leaves the frame. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation of the blocked program was rewritten on the way to the extended reals. -/
theorem preserves : Cert.preserves_Kernel_KernelIdeal := trivial

/-- From memories that agree on the eleven arguments, both runs end with the result buffer at one function of those
    arguments: the plain program's last operation, read over the blocked program's argument arrays. The blocked run's
    result is that function by the bridge through the three blocked products; the plain run's result is its own last
    operation of its own arguments, which are the blocked program's. -/
theorem algebraic : Cert.algebraic_KernelIdeal_ReferenceIdeal := by
  intro m ρ m' ρ' _ hagree
  refine ⟨fun c => Cert.ReferenceIdeal.ReadP.val_main_v102 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)),
    (θ_run Cert.KernelIdeal.defs _ _).mono (fun _ h c => ⟨(h c).1.trans (Cert.Bridge.result_eq m ρ c), (h c).2⟩)
      (Cert.KernelIdeal.RunValue.run_value (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v102_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
